-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x384 : Shape := ⟨2, ![128, 384]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x384 : S_.BroadcastsInDim S128x384 (![] : Fin 0 → Fin S128x384.rank)
  reducesTo_S128x384_S_d0_1 : S128x384.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S1600000 32) (main_arg2 : IVec S1600000 32) (main_arg3 : FVec F S128x384 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x384 .f32 := Host.absf main_arg3
  let main_cst_0 : FVec F S_ .f32 := constant S_ .f32 0x7F800000#32
  let main_v5 : FVec F S128x384 .f32 := broadcastInDim S128x384 ![] bcast_S_S128x384 main_cst_0
  let main_v6 : IVec S128x384 1 := cmpf .olt main_v4 main_v5
  let main_c_1 : IVec S_ 1 := constantI S_ 1 1#1
  let main_v7 : IVec S_ 1 := (fun x v => Host.reduce IntOp.andi x v reducesTo_S128x384_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S1600000 : Shape := ⟨1, ![1600000]⟩
abbrev S128x384 : Shape := ⟨2, ![128, 384]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S10000x128 : Shape := ⟨2, ![10000, 128]⟩
abbrev S10000x1 : Shape := ⟨2, ![10000, 1]⟩
abbrev S1600000x128 : Shape := ⟨2, ![1600000, 128]⟩
abbrev S128x128 : Shape := ⟨2, ![128, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 59
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x384, .f32⟩
  | .hbm, ⟨4, _⟩ => ⟨S128, .f32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S100000, .i1⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S100000x1, .f32⟩
  | .hbm, ⟨23, _⟩ => ⟨S100000x128, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x128, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x128, .f32⟩
  | .hbm, ⟨47, _⟩ => ⟨S_, .f32⟩
  | .hbm, ⟨48, _⟩ => ⟨S100000x128, .f32⟩
  | .hbm, ⟨49, _⟩ => ⟨S1600000x1, .i32⟩
  | .hbm, ⟨50, _⟩ => ⟨S100000x128, .f32⟩
  | .hbm, ⟨51, _⟩ => ⟨S128x128, .f32⟩
  | .hbm, ⟨52, _⟩ => ⟨S128x128, .f32⟩
  | .hbm, ⟨53, _⟩ => ⟨S128x128, .f32⟩
  | .hbm, ⟨54, _⟩ => ⟨S128x128, .f32⟩
  | .hbm, ⟨55, _⟩ => ⟨S128x128, .f32⟩
  | .hbm, ⟨56, _⟩ => ⟨S128x128, .f32⟩
  | .hbm, ⟨57, _⟩ => ⟨S1x128, .f32⟩
  | .hbm, ⟨58, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x1, .f32⟩
  | .local _ .vmem, ⟨9, _⟩ => ⟨S10000x1, .f32⟩
  | .local _ .vmem, ⟨10, _⟩ => ⟨S10000x128, .f32⟩
  | .local _ .vmem, ⟨11, _⟩ => ⟨S10000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x1, .f32⟩
  | .local _ .vmem, ⟨19, _⟩ => ⟨S5000x1, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_call0_v0 : Ref sig .tc := ⟨.hbm, 18, rfl⟩
abbrev main_call0_v1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_c_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg8_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem8_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S10000x128_S10000x128_0_0 : ∀ a, (![0, 0] : Fin 2 → Nat) a + S10000x128.size a ≤ S10000x128.size a
  h_S10000x128 : 0 < S10000x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S100000x128 : S_.BroadcastsInDim S100000x128 (![] : Fin 0 → Fin S100000x128.rank)
  shapeCasts_S10000x128_S10000x128 : S10000x128.ShapeCasts S10000x128
  slices_S128x384_S128x128_0_0 : S128x384.Slices ![0, 0] S128x128
  transposes_S128x128_S128x128_1_0 : S128x128.Transposes [1, 0] S128x128
  slices_S128x384_S128x128_0_128 : S128x384.Slices ![0, 128] S128x128
  slices_S128x384_S128x128_0_256 : S128x384.Slices ![0, 256] S128x128
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S100000x1.size a
  hwx2_3 : ∀ i : grid2.Coords, EltTy.bits .f32 = 32 ∨ (Rect.block (s := S100000x1) S5000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x128.size a ≤ S100000x128.size a
  hwx2_8 : ∀ i : grid2.Coords, EltTy.bits .f32 = 32 ∨ (Rect.block (s := S100000x128) S5000x128.size (cc2_transform_8 i) (hinb2_8 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v21) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v9) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v34) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v38) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v39) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v40) S5000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x384 : Shape := ⟨2, ![128, 384]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S100000x384 : Shape := ⟨2, ![100000, 384]⟩
abbrev S384x128 : Shape := ⟨2, ![384, 128]⟩
abbrev S1x128 : Shape := ⟨2, ![1, 128]⟩

abbrev nBuf : Space → Nat
  | .hbm => 55
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x384, .f32⟩
  | .hbm, ⟨4, _⟩ => ⟨S128, .f32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S100000, .f32⟩
  | .hbm, ⟨14, _⟩ => ⟨S100000x1, .f32⟩
  | .hbm, ⟨15, _⟩ => ⟨S100000x128, .f32⟩
  | .hbm, ⟨16, _⟩ => ⟨S100000x128, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S_, .f32⟩
  | .hbm, ⟨27, _⟩ => ⟨S100000x128, .f32⟩
  | .hbm, ⟨28, _⟩ => ⟨S1600000x1, .i32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S100000x384, .f32⟩
  | .hbm, ⟨50, _⟩ => ⟨S384x128, .f32⟩
  | .hbm, ⟨51, _⟩ => ⟨S100000x128, .f32⟩
  | .hbm, ⟨52, _⟩ => ⟨S1x128, .f32⟩
  | .hbm, ⟨53, _⟩ => ⟨S100000x128, .f32⟩
  | .hbm, ⟨54, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  concatenates_S100000x128_S100000x128_S100000x128_S100000x384_d1 : Shape.Concatenates [S100000x128, S100000x128, S100000x128] S100000x384 1
  transposes_S128x384_S384x128_1_0 : S128x384.Transposes [1, 0] S384x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x384_S384x128_S100000x128_1_0_0_1_n_n_wf : DotDims.WF S100000x384 S384x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf

class Facts : Prop extends Facts₀ where

variable [Facts]
-- ==== Proof.KernelRun.lean ====
/-
  The idealized kernel's run with its result named.

  From any memory with zero counters, every weakly fair execution of the kernel's program terminates without a
  fault, the five argument arrays end as launched, and the result array ends at the contents the program's last
  region leaves: the fold of the host operations and of the three regions' write-backs through the program,
  read at the result's buffer. The run itself is the one the frame is proved by — the same segments, the same
  launch — with the final contents of every unscoped buffer kept in the post instead of only the arguments'.
-/
import proofs.«163932_j26216480375292_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result's buffer ends at the last boundary's
    contents and the arguments end as launched. -/
theorem run_result : θ_run defs (onTc (τ := τ) (main (F := F))) ⟨m, fun _ => 0, ρ⟩ (fun r => ∀ c : Dev nD,
      r.2.mem ((c.tc : Thread nD τ).loc main_v40) = W8 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v40 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c)⟩)

end Cert.KernelIdeal.RunValue

end
-- ==== Proof.Formulas.lean ====
/-
  The two whole-array functions the three kernel regions compute, stated index by index over the extended reals,
  with every coordinate a literal `Fin`.

  * `rowScale x n` — the node-feature array `x` (100000 × 128) with row `r` multiplied by the entry `n (r, 0)` of a
    column `n` (100000 × 1): one application of the diagonal degree normalisation.
  * `linOut x0 x1 x2 n w0 w1 w2 b` — the projection of the three hop features: entry `(r, o)` is
    `((∑ₖ x0(r,k)·w0(k,o) + ∑ₖ (x1(r,k)·n(r,0))·w1(k,o)) + ∑ₖ (x2(r,k)·n(r,0))·w2(k,o)) + b(0,o)`, the sums over the 128
    feature columns, in exactly this grouping.
-/
import Idealize.ShloMosaic.PureOps.Ideal
import Idealize.ShloMosaic.Lib.ValueIdx

noncomputable section

namespace Cert.TagConv

open Idealize.ShloMosaic Idealize.ShloMosaic.ValueIdx

/-- A node-feature array: 100000 rows of 128 extended reals. -/
abbrev Arr := (⟨2, ![100000, 128]⟩ : Shape).Idx → EReal
/-- A column: one extended real per node. -/
abbrev Col := (⟨2, ![100000, 1]⟩ : Shape).Idx → EReal
/-- A 128 × 128 weight block. -/
abbrev Mat := (⟨2, ![128, 128]⟩ : Shape).Idx → EReal
/-- A bias row, 1 × 128. -/
abbrev Bias := (⟨2, ![1, 128]⟩ : Shape).Idx → EReal

/-- The row of an index of a node-feature array, as an index of a column. -/
abbrev rowOf (i : (⟨2, ![100000, 128]⟩ : Shape).Idx) : (⟨2, ![100000, 1]⟩ : Shape).Idx :=
  ix2 (n0 := 100000) (n1 := 1) (i 0) 0

/-- Row `r` of `x` multiplied by `n (r, 0)`. -/
def rowScale (x : Arr) (n : Col) : Arr := fun i => x i * n (rowOf i)

/-- The projection: three 128-column contractions, the second and third of row-scaled features, summed left to
    right, plus the bias row. -/
def linOut (x0 x1 x2 : Arr) (n : Col) (w0 w1 w2 : Mat) (b : Bias) : Arr := fun i =>
  ((∑ k : Fin 128, x0 (ix2 (n0 := 100000) (n1 := 128) (i 0) k) * w0 (ix2 (n0 := 128) (n1 := 128) k (i 1))
    + ∑ k : Fin 128, (x1 (ix2 (n0 := 100000) (n1 := 128) (i 0) k) * n (rowOf i)) * w1 (ix2 (n0 := 128) (n1 := 128) k (i 1)))
    + ∑ k : Fin 128, (x2 (ix2 (n0 := 100000) (n1 := 128) (i 0) k) * n (rowOf i)) * w2 (ix2 (n0 := 128) (n1 := 128) k (i 1)))
  + b (ix2 (n0 := 1) (n1 := 128) 0 (i 1))

end Cert.TagConv

end
-- ==== Proof.LibRowScatterAdd.lean ====
/-
  A float scatter-add whose scatter indices name ROWS, read at an index, at the exact instance.

  The operand is a table of `N` rows (of `C` entries each, or of one entry), the scatter indices a column of `E`
  words, the updates `E` rows of the same width. Update row `e` lands on operand row `n` exactly when its index
  word, read as a signed integer, is `n`; an index word outside `[0, N)` names no row and its update is dropped.
  So entry `(n, c)` of the result is the operand's entry plus the sum, over the update rows `e` that land on `n`,
  of the update's entry `(e, c)`.
-/
import Idealize.ShloMosaic.PureOps.Ideal
import Idealize.ShloMosaic.Lib.ValueIdx

noncomputable section

namespace RowScatter

open Idealize.ShloMosaic Idealize.ShloMosaic.ValueIdx

/-- The update rows that land on operand row `n`: those whose index word, read signed, is `n`. -/
def landing {E w : Nat} (idx : IVec (⟨2, ![E, 1]⟩ : Shape) w) (n : Nat) : Finset (Fin E) :=
  Finset.univ.filter fun e => (idx (ix2 e (0 : Fin 1))).toInt = (n : Int)

/-- An update index lands on operand index `i` exactly when, on every operand axis, the window's start plus the window
    coordinate is `i`'s coordinate (as integers: a start may be negative or past the end, and then no `i` fits). -/
private theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      have h1 := h a
      have hv : (d.start j idx a + (d.window j a : Int)).toNat = (i a).val := by rw [← hi]
      omega
    · intro hi
      funext a
      refine Fin.ext ?_
      have h1 := hi a
      show (d.start j idx a + (d.window j a : Int)).toNat = (i a).val
      omega
  · rename_i h
    constructor
    · intro hi; cases hi
    · intro hi
      refine absurd (fun a => ?_) h
      have h1 := hi a
      have h2 := (i a).isLt
      omega

/-! ## Rows of `C` entries -/

/-- The dimension numbers of a scatter of whole rows: the updates' axis 1 is the window axis, going to the operand's
    axis 1; the operand's axis 0 is the scattered (inserted) one, named by the one component of each index vector. -/
private abbrev rowsDims (N C E : Nat)
    (wf : ScatterDims.WF (⟨2, ![N, C]⟩ : Shape) (⟨2, ![E, 1]⟩ : Shape) (⟨2, ![E, C]⟩ : Shape) [1] [0] [0] 1) :
    ScatterDims (⟨2, ![N, C]⟩ : Shape) (⟨2, ![E, 1]⟩ : Shape) (⟨2, ![E, C]⟩ : Shape) where
  updateWindowDims := [1]
  insertedWindowDims := [0]
  scatterDimsToOperandDims := [0]
  indexVectorDim := 1
  wf := wf

section Rows
variable {N C E w : Nat}
  (wf : ScatterDims.WF (⟨2, ![N, C]⟩ : Shape) (⟨2, ![E, 1]⟩ : Shape) (⟨2, ![E, C]⟩ : Shape) [1] [0] [0] 1)
  (j : (⟨2, ![E, C]⟩ : Shape).Idx) (idx : IVec (⟨2, ![E, 1]⟩ : Shape) w)

/-- On the row axis the window starts at the index word of the update's row, read signed. -/
private theorem rows_start0 : (rowsDims N C E wf).start j idx 0 = (idx (ix2 (j 0) (0 : Fin 1))).toInt := by
  unfold ScatterDims.start
  rw [dif_pos (show (0 : Fin 2) ∈ (rowsDims N C E wf).scatterDimsToOperandDims from List.mem_singleton.mpr rfl)]
  have hsi : (rowsDims N C E wf).siIdx j ⟨List.idxOf (0 : Fin 2) (rowsDims N C E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the entry axis the window starts at 0: no index component names it. -/
private theorem rows_start1 : (rowsDims N C E wf).start j idx 1 = 0 := by
  unfold ScatterDims.start
  have h : ¬ (1 : Fin 2) ∈ (rowsDims N C E wf).scatterDimsToOperandDims :=
    show ¬ (1 : Fin 2) ∈ ([0] : List (Fin 2)) from by decide
  rw [dif_neg h]

/-- The row axis is inserted: its window coordinate is 0. -/
private theorem rows_window0 : (rowsDims N C E wf).window j 0 = 0 := by
  unfold ScatterDims.window
  have h : ¬ (0 : Fin 2) ∈ (rowsDims N C E wf).sKept :=
    show ¬ (0 : Fin 2) ∈ ([1] : List (Fin 2)) from by decide
  rw [dif_neg h]

/-- The entry axis is the window axis: its window coordinate is the update's entry coordinate. -/
private theorem rows_window1 : (rowsDims N C E wf).window j 1 = (j 1).val := by
  unfold ScatterDims.window
  have h : (1 : Fin 2) ∈ (rowsDims N C E wf).sKept :=
    show (1 : Fin 2) ∈ ([1] : List (Fin 2)) from by decide
  rw [dif_pos h]
  rfl

end Rows

/-- An update entry `j` lands on entry `(n, c)` exactly when its row's index word is `n` and its entry coordinate is `c`. -/
private theorem rows_lands_iff {N C E w : Nat}
    (wf : ScatterDims.WF (⟨2, ![N, C]⟩ : Shape) (⟨2, ![E, 1]⟩ : Shape) (⟨2, ![E, C]⟩ : Shape) [1] [0] [0] 1)
    (j : (⟨2, ![E, C]⟩ : Shape).Idx) (idx : IVec (⟨2, ![E, 1]⟩ : Shape) w) (n : Fin N) (c : Fin C) :
    (rowsDims N C E wf).resultIdx? j idx = some (ix2 n c) ↔
      (idx (ix2 (j 0) (0 : Fin 1))).toInt = (n.val : Int) ∧ (j 1).val = c.val := by
  rw [resultIdx?_eq_some_iff]
  constructor
  · intro h
    have h0 : (rowsDims N C E wf).start j idx 0 + ((rowsDims N C E wf).window j 0 : Int) = (n.val : Int) := h 0
    have h1 : (rowsDims N C E wf).start j idx 1 + ((rowsDims N C E wf).window j 1 : Int) = (c.val : Int) := h 1
    rw [rows_start0, rows_window0] at h0
    rw [rows_start1, rows_window1] at h1
    exact ⟨by omega, by omega⟩
  · rintro ⟨h0, h1⟩ a
    match a with
    | ⟨0, _⟩ =>
      show (rowsDims N C E wf).start j idx 0 + ((rowsDims N C E wf).window j 0 : Int) = (n.val : Int)
      rw [rows_start0, rows_window0]; omega
    | ⟨1, _⟩ =>
      show (rowsDims N C E wf).start j idx 1 + ((rowsDims N C E wf).window j 1 : Int) = (c.val : Int)
      rw [rows_start1, rows_window1]; omega

private theorem rows_apply {N C E w : Nat}
    (wf : ScatterDims.WF (⟨2, ![N, C]⟩ : Shape) (⟨2, ![E, 1]⟩ : Shape) (⟨2, ![E, C]⟩ : Shape) [1] [0] [0] 1)
    (x : (⟨2, ![N, C]⟩ : Shape).Idx → EReal) (idx : IVec (⟨2, ![E, 1]⟩ : Shape) w)
    (upd : (⟨2, ![E, C]⟩ : Shape).Idx → EReal) (n : Fin N) (c : Fin C) :
    Ideal.hostScatterAdd (rowsDims N C E wf) x idx upd (ix2 n c)
      = x (ix2 n c) + ∑ e ∈ landing idx n.val, upd (ix2 e c) := by
  unfold Ideal.hostScatterAdd
  congr 1
  refine Finset.sum_nbij' (fun j => (j 0 : Fin E)) (fun e => ix2 e c) ?_ ?_ ?_ ?_ ?_
  · intro j hj
    have h := (rows_lands_iff wf j idx n c).1 (Finset.mem_filter.1 hj).2
    exact Finset.mem_filter.2 ⟨Finset.mem_univ _, h.1⟩
  · intro e he
    have h := (Finset.mem_filter.1 he).2
    exact Finset.mem_filter.2 ⟨Finset.mem_univ _, (rows_lands_iff wf (ix2 e c) idx n c).2 ⟨h, rfl⟩⟩
  · intro j hj
    have h := (rows_lands_iff wf j idx n c).1 (Finset.mem_filter.1 hj).2
    have hc : (j 1 : Fin C) = c := Fin.ext h.2
    rw [← hc]
    exact (eq_ix2 j).symm
  · intro e _
    rfl
  · intro j hj
    have h := (rows_lands_iff wf j idx n c).1 (Finset.mem_filter.1 hj).2
    have hc : (j 1 : Fin C) = c := Fin.ext h.2
    rw [← hc]
    exact congrArg upd (eq_ix2 j)

/-- Rows of `C` entries: entry `(n, c)` of the scatter-add is the operand's entry plus the sum of the entries `(e, c)`
    of the update rows `e` landing on row `n`. -/
theorem scatterAdd_rows_apply {N C E w : Nat}
    (d : ScatterDims (⟨2, ![N, C]⟩ : Shape) (⟨2, ![E, 1]⟩ : Shape) (⟨2, ![E, C]⟩ : Shape))
    (h1 : d.updateWindowDims = [1]) (h2 : d.insertedWindowDims = [0])
    (h3 : d.scatterDimsToOperandDims = [0]) (h4 : d.indexVectorDim = 1)
    (x : (⟨2, ![N, C]⟩ : Shape).Idx → EReal) (idx : IVec (⟨2, ![E, 1]⟩ : Shape) w)
    (upd : (⟨2, ![E, C]⟩ : Shape).Idx → EReal) (n : Fin N) (c : Fin C) :
    Ideal.hostScatterAdd d x idx upd (ix2 n c) = x (ix2 n c) + ∑ e ∈ landing idx n.val, upd (ix2 e c) := by
  obtain ⟨uw, iw, sd, iv, wf⟩ := d
  obtain rfl : uw = [1] := h1
  obtain rfl : iw = [0] := h2
  obtain rfl : sd = [0] := h3
  obtain rfl : iv = 1 := h4
  exact rows_apply wf x idx upd n c

/-! ## Rows of one entry -/

/-- The dimension numbers of a scatter of single entries into a vector: no window axis; the operand's one axis is the
    scattered (inserted) one, named by the one component of each index vector. -/
private abbrev vecDims (N E : Nat)
    (wf : ScatterDims.WF (⟨1, ![N]⟩ : Shape) (⟨2, ![E, 1]⟩ : Shape) (⟨1, ![E]⟩ : Shape) [] [0] [0] 1) :
    ScatterDims (⟨1, ![N]⟩ : Shape) (⟨2, ![E, 1]⟩ : Shape) (⟨1, ![E]⟩ : Shape) where
  updateWindowDims := []
  insertedWindowDims := [0]
  scatterDimsToOperandDims := [0]
  indexVectorDim := 1
  wf := wf

section Vec
variable {N E w : Nat}
  (wf : ScatterDims.WF (⟨1, ![N]⟩ : Shape) (⟨2, ![E, 1]⟩ : Shape) (⟨1, ![E]⟩ : Shape) [] [0] [0] 1)
  (j : (⟨1, ![E]⟩ : Shape).Idx) (idx : IVec (⟨2, ![E, 1]⟩ : Shape) w)

/-- On the one operand axis the window starts at the update's index word, read signed. -/
private theorem vec_start0 : (vecDims N E wf).start j idx 0 = (idx (ix2 (j 0) (0 : Fin 1))).toInt := by
  unfold ScatterDims.start
  rw [dif_pos (show (0 : Fin 1) ∈ (vecDims N E wf).scatterDimsToOperandDims from List.mem_singleton.mpr rfl)]
  have hsi : (vecDims N E wf).siIdx j ⟨List.idxOf (0 : Fin 1) (vecDims N E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The one operand axis is inserted: its window coordinate is 0. -/
private theorem vec_window0 : (vecDims N E wf).window j 0 = 0 := by
  unfold ScatterDims.window
  have h : ¬ (0 : Fin 1) ∈ (vecDims N E wf).sKept :=
    show ¬ (0 : Fin 1) ∈ ([] : List (Fin 1)) from by decide
  rw [dif_neg h]

end Vec

/-- An update `j` lands on entry `n` exactly when its index word is `n`. -/
private theorem vec_lands_iff {N E w : Nat}
    (wf : ScatterDims.WF (⟨1, ![N]⟩ : Shape) (⟨2, ![E, 1]⟩ : Shape) (⟨1, ![E]⟩ : Shape) [] [0] [0] 1)
    (j : (⟨1, ![E]⟩ : Shape).Idx) (idx : IVec (⟨2, ![E, 1]⟩ : Shape) w) (n : Fin N) :
    (vecDims N E wf).resultIdx? j idx = some (ix1 n) ↔ (idx (ix2 (j 0) (0 : Fin 1))).toInt = (n.val : Int) := by
  rw [resultIdx?_eq_some_iff]
  constructor
  · intro h
    have h0 : (vecDims N E wf).start j idx 0 + ((vecDims N E wf).window j 0 : Int) = (n.val : Int) := h 0
    rw [vec_start0, vec_window0] at h0
    omega
  · intro h0 a
    match a with
    | ⟨0, _⟩ =>
      show (vecDims N E wf).start j idx 0 + ((vecDims N E wf).window j 0 : Int) = (n.val : Int)
      rw [vec_start0, vec_window0]; omega

private theorem vec_apply {N E w : Nat}
    (wf : ScatterDims.WF (⟨1, ![N]⟩ : Shape) (⟨2, ![E, 1]⟩ : Shape) (⟨1, ![E]⟩ : Shape) [] [0] [0] 1)
    (x : (⟨1, ![N]⟩ : Shape).Idx → EReal) (idx : IVec (⟨2, ![E, 1]⟩ : Shape) w)
    (upd : (⟨1, ![E]⟩ : Shape).Idx → EReal) (n : Fin N) :
    Ideal.hostScatterAdd (vecDims N E wf) x idx upd (ix1 n) = x (ix1 n) + ∑ e ∈ landing idx n.val, upd (ix1 e) := by
  unfold Ideal.hostScatterAdd
  congr 1
  refine Finset.sum_nbij' (fun j => (j 0 : Fin E)) (fun e => ix1 e) ?_ ?_ ?_ ?_ ?_
  · intro j hj
    have h := (vec_lands_iff wf j idx n).1 (Finset.mem_filter.1 hj).2
    exact Finset.mem_filter.2 ⟨Finset.mem_univ _, h⟩
  · intro e he
    have h := (Finset.mem_filter.1 he).2
    exact Finset.mem_filter.2 ⟨Finset.mem_univ _, (vec_lands_iff wf (ix1 e) idx n).2 h⟩
  · intro j _
    exact (eq_ix1 j).symm
  · intro e _
    rfl
  · intro j _
    exact congrArg upd (eq_ix1 j)

/-- Rows of one entry (a vector operand): entry `n` of the scatter-add is the operand's entry plus the sum of the
    updates `e` landing on `n`. -/
theorem scatterAdd_vec_apply {N E w : Nat}
    (d : ScatterDims (⟨1, ![N]⟩ : Shape) (⟨2, ![E, 1]⟩ : Shape) (⟨1, ![E]⟩ : Shape))
    (h1 : d.updateWindowDims = []) (h2 : d.insertedWindowDims = [0])
    (h3 : d.scatterDimsToOperandDims = [0]) (h4 : d.indexVectorDim = 1)
    (x : (⟨1, ![N]⟩ : Shape).Idx → EReal) (idx : IVec (⟨2, ![E, 1]⟩ : Shape) w)
    (upd : (⟨1, ![E]⟩ : Shape).Idx → EReal) (n : Fin N) :
    Ideal.hostScatterAdd d x idx upd (ix1 n) = x (ix1 n) + ∑ e ∈ landing idx n.val, upd (ix1 e) := by
  obtain ⟨uw, iw, sd, iv, wf⟩ := d
  obtain rfl : uw = [] := h1
  obtain rfl : iw = [0] := h2
  obtain rfl : sd = [0] := h3
  obtain rfl : iv = 1 := h4
  exact vec_apply wf x idx upd n

end RowScatter

end
-- ==== Proof.DegreeGuard.lean ====
/-
  The guard on a zero in-degree changes nothing at the exact instance.

  The in-degree of a node is a sum of ones, one for each edge whose destination word names the node, so it is not
  negative. The normaliser is the in-degree to the power minus one half. Where the in-degree is positive the guarded
  normaliser selects that power; where it is not, the in-degree is zero, and zero to a real power other than zero is
  zero, which is the value the guard puts there.
-/
import proofs.«163932_j26216480375292_2_alg».proof.Proof.Gen.KernelIdeal
import proofs.«163932_j26216480375292_2_alg».proof.Proof.LibRowScatterAdd
import Idealize.ShloMosaic.PureOps.Ideal
import Idealize.ShloMosaic.Lib.ValueIdx
import Idealize.ShloMosaic.Lib.IdealHost

noncomputable section

namespace Cert.KernelIdeal.HostValues

open Idealize.ShloMosaic Idealize.ShloMosaic.TcCoe Idealize.SL.Sem Idealize.ShloMosaic.ValueIdx Cert.KernelIdeal Cert.KernelIdeal.Gen

/-- The in-degree: a scatter-add of ones into zeros at the destination words. -/
def degOf (dst : IVec S1600000 32) : FVec Ideal S100000 .f32 :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 dst)
    (broadcastInDim S1600000 ![] bcast_S_S1600000 (constant (F := Ideal) S_ .f32 0x3F800000#32))

/-- The normaliser deg ** -0.5, unguarded. -/
def normOf (dst : IVec S1600000 32) : FVec Ideal S100000 .f32 :=
  Host.powf (degOf dst) (broadcastInDim S100000 ![] bcast_S_S100000 (constant (F := Ideal) S_ .f32 0xBF000000#32))

/-- The f32 pattern `0xBF000000` is the real minus one half. -/
theorem ofBits_neg_half_f32 : Ideal.ofBits .f32 0xBF000000#32 = ((-(1 / 2 : ℝ) : ℝ) : EReal) := by
  simp [Ideal.ofBits, Ideal.ieee, -EReal.coe_mul, -EReal.coe_neg]; norm_num

/-- At the exact instance the accumulating scatter is the exact one: every entry plus the sum of the updates landing on it. -/
theorem host_scatterAdd_ideal {s si u : Shape} {w : Nat} {φ : FTy} (d : ScatterDims s si u) (x : FVec Ideal s φ)
    (idx : IVec si w) (upd : FVec Ideal u φ) :
    Host.scatterAdd d x idx upd = Ideal.hostScatterAdd d x idx upd := rfl

/-- The in-degree, spelled out. -/
theorem degOf_eq (dst : IVec S1600000 32) :
    degOf dst = Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 dst)
      (broadcastInDim S1600000 ![] bcast_S_S1600000 (constant (F := Ideal) S_ .f32 0x3F800000#32)) := rfl

/-- The in-degree at a node: zero plus one for every edge whose destination word names the node. -/
theorem degOf_apply (dst : IVec S1600000 32) (n : Fin 100000) :
    degOf dst (ix1 n)
      = 0 + ∑ _e ∈ RowScatter.landing (broadcastInDim S1600000x1 ![0] bcast_S1600000_S1600000x1_0 dst) n.val, (1 : EReal) := by
  rw [degOf_eq, host_scatterAdd_ideal, RowScatter.scatterAdd_vec_apply _ rfl rfl rfl rfl]
  have hone : ∀ e : Fin 1600000,
      broadcastInDim S1600000 ![] bcast_S_S1600000 (constant (F := Ideal) S_ .f32 0x3F800000#32) (ix1 e) = 1 := fun e => by
    rw [broadcastInDim_scalar_apply, constant_apply, Ideal.ofBits_one_f32]
  simp only [hone]
  rw [broadcastInDim_scalar_apply, constant_apply, Ideal.ofBits_zero_f32]

/-- The in-degree is not negative. -/
theorem degOf_nonneg (dst : IVec S1600000 32) (n : Fin 100000) : 0 ≤ degOf dst (ix1 n) := by
  rw [degOf_apply, zero_add]
  exact Finset.sum_nonneg fun _ _ => zero_le_one

/-- On an extended real that is not negative, guarding the power `a ** r` (`r` a real other than zero) by `0 < a` with
    the value zero changes nothing: at `a = 0` the power is zero already. -/
theorem guard_scalar (a : EReal) (r : ℝ) (hr : r ≠ 0) (ha : 0 ≤ a) :
    Scalar.select (FloatOps.cmpf (F := Ideal) (φ := .f32) .ogt a (0 : EReal)) (Ideal.pow a ((r : ℝ) : EReal)) (0 : EReal)
      = Ideal.pow a ((r : ℝ) : EReal) := by
  have hc : FloatOps.cmpf (F := Ideal) (φ := .f32) .ogt a (0 : EReal) = BitVec.ofBool (decide ((0 : EReal) < a)) := rfl
  rw [hc]
  by_cases hpos : (0 : EReal) < a
  · rw [decide_eq_true hpos]
    exact select_one _ _
  · rw [decide_eq_false hpos]
    have hz : a = ((0 : ℝ) : EReal) := by
      rw [EReal.coe_zero]; exact le_antisymm (not_lt.mp hpos) ha
    rw [hz, Ideal.pow_coe_coe, show Real.rpow 0 r = 0 from Real.zero_rpow hr, EReal.coe_zero]
    exact select_zero _ _

/-- The power at an index is the instance's power of the entries. -/
theorem host_powf_ideal {s : Shape} {φ : FTy} (x y : FVec Ideal s φ) (i : s.Idx) :
    Host.powf x y i = Ideal.pow (x i) (y i) := rfl

/-- The normaliser, spelled out. -/
theorem normOf_eq (dst : IVec S1600000 32) :
    normOf dst = Host.powf (degOf dst)
      (broadcastInDim S100000 ![] bcast_S_S100000 (constant (F := Ideal) S_ .f32 0xBF000000#32)) := rfl

/-- The normaliser at a node: the in-degree to the power minus one half. -/
theorem normOf_apply (dst : IVec S1600000 32) (n : Fin 100000) :
    normOf dst (ix1 n) = Ideal.pow (degOf dst (ix1 n)) ((-(1 / 2 : ℝ) : ℝ) : EReal) := by
  rw [normOf_eq, host_powf_ideal, broadcastInDim_scalar_apply, constant_apply, ofBits_neg_half_f32]

/-- The guarded normaliser is the unguarded one: where the in-degree is zero the power is zero already. -/
theorem guard_eq (dst : IVec S1600000 32) :
    select (cmpf .ogt (degOf dst) (broadcastInDim S100000 ![] bcast_S_S100000 (constant (F := Ideal) S_ .f32 0x00000000#32)))
        (normOf dst) (broadcastInDim S100000 ![] bcast_S_S100000 (constant (F := Ideal) S_ .f32 0x00000000#32))
      = normOf dst := by
  funext i
  obtain ⟨n, rfl⟩ : ∃ n : Fin 100000, i = ix1 n := ⟨i 0, eq_ix1 i⟩
  rw [select_apply, cmpf_apply, broadcastInDim_scalar_apply, constant_apply, Ideal.ofBits_zero_f32, normOf_apply]
  exact guard_scalar _ _ (by norm_num) (degOf_nonneg dst n)

end Cert.KernelIdeal.HostValues

end
-- ==== Proof.LibBlockSum.lean ====
/-
  A sum over a range cut into consecutive blocks of equal length.

  For any function `h` on the naturals with values in a commutative additive monoid (the extended reals among them:
  their addition is commutative and associative, infinities included), the sum of `h` over the first `B * n`
  naturals is the sum, over the `n` consecutive blocks of length `B`, of `h` over each block — position `j` of
  block `s` being the natural `B * s + j`.  With the sums over `Fin` types: a contraction of length `B * n`
  carried out `B` positions at a time, block after block, is the whole contraction.  Only the monoid laws are used,
  so no finiteness of the summands is needed.
-/
import Mathlib.Algebra.BigOperators.Fin
import Mathlib.Algebra.BigOperators.Intervals

namespace Cert.Lib.BlockSum

open Finset

variable {M : Type*} [AddCommMonoid M]

/-- The sum over the first `B * n` naturals is the sum of the `n` block sums. -/
theorem sum_range_blocks (h : ℕ → M) (B : ℕ) :
    ∀ n : ℕ, ∑ s ∈ range n, ∑ j ∈ range B, h (B * s + j) = ∑ k ∈ range (B * n), h k
  | 0 => by simp
  | n + 1 => by
    rw [sum_range_succ, sum_range_blocks h B n, Nat.mul_succ, sum_range_add]

/-- The same with the positions inside a block, and the whole range, indexed by `Fin` types. -/
theorem sum_fin_blocks (h : ℕ → M) (B n N : ℕ) (hN : N = B * n) :
    ∑ s ∈ range n, ∑ j : Fin B, h (B * s + j.val) = ∑ k : Fin N, h k.val := by
  subst hN
  rw [Fin.sum_univ_eq_sum_range (fun k => h k) (B * n), ← sum_range_blocks h B n]
  exact sum_congr rfl fun s _ => Fin.sum_univ_eq_sum_range (fun j => h (B * s + j)) B

end Cert.Lib.BlockSum
-- ==== Proof.RefProjection.lean ====
/-
  The reference's last stage as the projection formula.

  The reference ends by joining, along the columns, the input features with the two neighbour aggregations, each
  aggregation scaled row by row by the normaliser column, into one array of 384 columns; contracting that array
  with the transposed weight matrix; and adding the bias broadcast down the rows. Entry (r, o) of the result is
  therefore the sum over k < 384 of joined (r, k) · W (o, k), plus b (o). The 384 positions are three consecutive
  blocks of 128: in block 0 the joined array reads the input features, in block 1 the first aggregation times the
  normaliser, in block 2 the second aggregation times the normaliser, and W (o, 128 s + k) is entry (k, o) of the
  transposed block s of W. So the result is `linOut` of the three feature arrays, the normaliser column, the three
  transposed weight blocks and the bias row. Only commutativity and associativity of the extended reals' addition
  are used (a sum cut into consecutive blocks); no distributivity and no finiteness.
-/
import proofs.«163932_j26216480375292_2_alg».proof.Proof.Gen.ReferenceIdeal.Read
import proofs.«163932_j26216480375292_2_alg».proof.Proof.Gen.KernelIdeal
import proofs.«163932_j26216480375292_2_alg».proof.Proof.Formulas
import proofs.«163932_j26216480375292_2_alg».proof.Proof.LibBlockSum
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.TcCoe Idealize.SL.Sem Idealize.ShloMosaic.ValueIdx Cert.ReferenceIdeal Cert.ReferenceIdeal.Read Cert.TagConv

/-- Block 0 of the weight matrix, transposed: entry (k, o) is W (o, k). -/
abbrev wBlock0 (x3 : FVec Ideal S128x384 .f32) : FVec Ideal Cert.KernelIdeal.S128x128 .f32 :=
  transpose Cert.KernelIdeal.S128x128 [1, 0] (extractStridedSlice Cert.KernelIdeal.S128x128 ![0, 0] x3 Cert.KernelIdeal.Gen.slices_S128x384_S128x128_0_0) Cert.KernelIdeal.Gen.transposes_S128x128_S128x128_1_0
/-- Block 1 of the weight matrix, transposed: entry (k, o) is W (o, 128 + k). -/
abbrev wBlock1 (x3 : FVec Ideal S128x384 .f32) : FVec Ideal Cert.KernelIdeal.S128x128 .f32 :=
  transpose Cert.KernelIdeal.S128x128 [1, 0] (extractStridedSlice Cert.KernelIdeal.S128x128 ![0, 128] x3 Cert.KernelIdeal.Gen.slices_S128x384_S128x128_0_128) Cert.KernelIdeal.Gen.transposes_S128x128_S128x128_1_0
/-- Block 2 of the weight matrix, transposed: entry (k, o) is W (o, 256 + k). -/
abbrev wBlock2 (x3 : FVec Ideal S128x384 .f32) : FVec Ideal Cert.KernelIdeal.S128x128 .f32 :=
  transpose Cert.KernelIdeal.S128x128 [1, 0] (extractStridedSlice Cert.KernelIdeal.S128x128 ![0, 256] x3 Cert.KernelIdeal.Gen.slices_S128x384_S128x128_0_256) Cert.KernelIdeal.Gen.transposes_S128x128_S128x128_1_0
/-- The bias vector as a one-row matrix. -/
abbrev biasRow (x4 : FVec Ideal S128 .f32) : FVec Ideal Cert.KernelIdeal.S1x128 .f32 :=
  shapeCast Cert.KernelIdeal.S1x128 x4 Cert.KernelIdeal.Gen.shapeCasts_S128_S1x128

/-- A sum over 384 positions is the sum of its three consecutive blocks of 128, left to right. -/
theorem sum_three_blocks {M : Type*} [AddCommMonoid M] (f : Fin 384 → M) :
    ∑ k : Fin 384, f k
      = (∑ j : Fin 128, f ⟨j.val, by omega⟩ + ∑ j : Fin 128, f ⟨128 + j.val, by omega⟩)
        + ∑ j : Fin 128, f ⟨256 + j.val, by omega⟩ := by
  let h : ℕ → M := fun n => if hn : n < 384 then f ⟨n, hn⟩ else 0
  have hh : ∀ (n : ℕ) (hn : n < 384), h n = f ⟨n, hn⟩ := fun n hn => dif_pos hn
  have e : ∑ k : Fin 384, f k = ∑ k : Fin 384, h k.val :=
    Finset.sum_congr rfl fun k _ => (hh k.val k.isLt).symm
  rw [e, ← Cert.Lib.BlockSum.sum_fin_blocks h 128 3 384 rfl, Finset.sum_range_succ, Finset.sum_range_succ,
    Finset.sum_range_succ, Finset.sum_range_zero, zero_add]
  refine congrArg₂ (· + ·) (congrArg₂ (· + ·) ?_ ?_) ?_
  · exact Finset.sum_congr rfl fun j _ => by
      exact (hh (128 * 0 + j.val) (by omega)).trans (congrArg f (Fin.ext (by show 128 * 0 + j.val = j.val; omega)))
  · exact Finset.sum_congr rfl fun j _ => by
      exact (hh (128 * 1 + j.val) (by omega)).trans (congrArg f (Fin.ext (by show 128 * 1 + j.val = 128 + j.val; omega)))
  · exact Finset.sum_congr rfl fun j _ => by
      exact (hh (128 * 2 + j.val) (by omega)).trans (congrArg f (Fin.ext (by show 128 * 2 + j.val = 256 + j.val; omega)))

/-- The weight blocks at an index. -/
theorem wBlock0_apply (x3 : FVec Ideal S128x384 .f32) (k o : Fin 128) :
    wBlock0 x3 (ix2 (n0 := 128) (n1 := 128) k o) = x3 (ix2 (n0 := 128) (n1 := 384) o ⟨k.val, by omega⟩) := by
  refine (transpose_apply [1, 0] _ Cert.KernelIdeal.Gen.transposes_S128x128_S128x128_1_0 _ (ix2 (n0 := 128) (n1 := 128) o k)
    (fun b => match b with | ⟨0, _⟩ => rfl | ⟨1, _⟩ => rfl)).trans ?_
  exact extractStridedSlice_apply ![0, 0] x3 Cert.KernelIdeal.Gen.slices_S128x384_S128x128_0_0 _ _
    (fun a => match a with
      | ⟨0, _⟩ => by show o.val = 0 + o.val; omega
      | ⟨1, _⟩ => by show k.val = 0 + k.val; omega)
theorem wBlock1_apply (x3 : FVec Ideal S128x384 .f32) (k o : Fin 128) :
    wBlock1 x3 (ix2 (n0 := 128) (n1 := 128) k o) = x3 (ix2 (n0 := 128) (n1 := 384) o ⟨128 + k.val, by omega⟩) := by
  refine (transpose_apply [1, 0] _ Cert.KernelIdeal.Gen.transposes_S128x128_S128x128_1_0 _ (ix2 (n0 := 128) (n1 := 128) o k)
    (fun b => match b with | ⟨0, _⟩ => rfl | ⟨1, _⟩ => rfl)).trans ?_
  exact extractStridedSlice_apply ![0, 128] x3 Cert.KernelIdeal.Gen.slices_S128x384_S128x128_0_128 _ _
    (fun a => match a with
      | ⟨0, _⟩ => by show o.val = 0 + o.val; omega
      | ⟨1, _⟩ => by show 128 + k.val = 128 + k.val; rfl)
theorem wBlock2_apply (x3 : FVec Ideal S128x384 .f32) (k o : Fin 128) :
    wBlock2 x3 (ix2 (n0 := 128) (n1 := 128) k o) = x3 (ix2 (n0 := 128) (n1 := 384) o ⟨256 + k.val, by omega⟩) := by
  refine (transpose_apply [1, 0] _ Cert.KernelIdeal.Gen.transposes_S128x128_S128x128_1_0 _ (ix2 (n0 := 128) (n1 := 128) o k)
    (fun b => match b with | ⟨0, _⟩ => rfl | ⟨1, _⟩ => rfl)).trans ?_
  exact extractStridedSlice_apply ![0, 256] x3 Cert.KernelIdeal.Gen.slices_S128x384_S128x128_0_256 _ _
    (fun a => match a with
      | ⟨0, _⟩ => by show o.val = 0 + o.val; omega
      | ⟨1, _⟩ => by show 256 + k.val = 256 + k.val; rfl)
/-- The bias row at an index. -/
theorem biasRow_apply (x4 : FVec Ideal S128 .f32) (o : Fin 128) :
    biasRow x4 (ix2 (n0 := 1) (n1 := 128) 0 o) = x4 (ix1 (n := 128) o) := by
  refine shapeCast_apply x4 Cert.KernelIdeal.Gen.shapeCasts_S128_S1x128 _ _ ?_
  rw [Shape.rowMajor_val_one, Shape.rowMajor_val_two]
  show o.val = 0 * 128 + o.val
  omega

/-- The joined feature array at a column of each of its three blocks. -/
theorem cat_block0 (x0 : (⟨S100000x128, .f32⟩ : BufTy).Contents (Elt Ideal)) (x1 x2 : (⟨S1600000, .i32⟩ : BufTy).Contents (Elt Ideal))
    (r : Fin 100000) (k : Fin 128) :
    val_main_v35 (F := Ideal) x0 x1 x2 (ix2 (n0 := 100000) (n1 := 384) r ⟨k.val, by omega⟩)
      = x0 (ix2 (n0 := 100000) (n1 := 128) r k) := by
  unfold val_main_v35
  exact concatenate_apply_piece _ _ _ _
    0 (by show (0 : Nat) < 3; decide) S100000x128 x0 (by rfl) (by rfl) 0 (by rfl) (ix2 (n0 := 100000) (n1 := 128) r k)
    (fun b => match b with | ⟨0, _⟩ => fun _ => rfl | ⟨1, _⟩ => fun h => absurd (Fin.ext rfl) h)
    (by show 0 + k.val = k.val; omega)
theorem cat_block1 (x0 : (⟨S100000x128, .f32⟩ : BufTy).Contents (Elt Ideal)) (x1 x2 : (⟨S1600000, .i32⟩ : BufTy).Contents (Elt Ideal))
    (r : Fin 100000) (k : Fin 128) :
    val_main_v35 (F := Ideal) x0 x1 x2 (ix2 (n0 := 100000) (n1 := 384) r ⟨128 + k.val, by omega⟩)
      = val_main_v20 (F := Ideal) x0 x1 x2 (ix2 (n0 := 100000) (n1 := 128) r k) := by
  unfold val_main_v35
  exact concatenate_apply_piece _ _ _ _
    1 (by show (1 : Nat) < 3; decide) S100000x128 (val_main_v20 (F := Ideal) x0 x1 x2) (by rfl) (by rfl) 128 (by rfl) (ix2 (n0 := 100000) (n1 := 128) r k)
    (fun b => match b with | ⟨0, _⟩ => fun _ => rfl | ⟨1, _⟩ => fun h => absurd (Fin.ext rfl) h)
    (by show 128 + k.val = 128 + k.val; rfl)
theorem cat_block2 (x0 : (⟨S100000x128, .f32⟩ : BufTy).Contents (Elt Ideal)) (x1 x2 : (⟨S1600000, .i32⟩ : BufTy).Contents (Elt Ideal))
    (r : Fin 100000) (k : Fin 128) :
    val_main_v35 (F := Ideal) x0 x1 x2 (ix2 (n0 := 100000) (n1 := 384) r ⟨256 + k.val, by omega⟩)
      = val_main_v34 (F := Ideal) x0 x1 x2 (ix2 (n0 := 100000) (n1 := 128) r k) := by
  unfold val_main_v35
  exact concatenate_apply_piece _ _ _ _
    2 (by show (2 : Nat) < 3; decide) S100000x128 (val_main_v34 (F := Ideal) x0 x1 x2) (by rfl) (by rfl) 256 (by rfl) (ix2 (n0 := 100000) (n1 := 128) r k)
    (fun b => match b with | ⟨0, _⟩ => fun _ => rfl | ⟨1, _⟩ => fun h => absurd (Fin.ext rfl) h)
    (by show 256 + k.val = 256 + k.val; rfl)

/-- The reference's result at (r, o): the contraction of row r of the joined features with row o of W, plus b (o). -/
theorem v40_at (x0 : (⟨S100000x128, .f32⟩ : BufTy).Contents (Elt Ideal)) (x1 x2 : (⟨S1600000, .i32⟩ : BufTy).Contents (Elt Ideal))
    (x3 : (⟨S128x384, .f32⟩ : BufTy).Contents (Elt Ideal)) (x4 : (⟨S128, .f32⟩ : BufTy).Contents (Elt Ideal))
    (r : Fin 100000) (o : Fin 128) :
    val_main_v40 (F := Ideal) x0 x1 x2 x3 x4 (ix2 (n0 := 100000) (n1 := 128) r o)
      = (∑ k : Fin 384, val_main_v35 (F := Ideal) x0 x1 x2 (ix2 (n0 := 100000) (n1 := 384) r k) * x3 (ix2 (n0 := 128) (n1 := 384) o k))
        + x4 (ix1 (n := 128) o) := by
  rw [val_main_v40_apply, val_main_v37_apply, val_main_v39_apply, val_main_v38_apply]
  refine congrArg₂ (· + ·) (Finset.sum_congr rfl fun k _ => ?_) (congrArg x4 (funext fun a => Fin.ext (by match a with | ⟨0, _⟩ => rfl)))
  rw [val_main_v36_apply]
  refine congrArg₂ (· * ·) (congrArg _ (funext fun a => Fin.ext (by match a with | ⟨0, _⟩ => rfl | ⟨1, _⟩ => rfl)))
    (congrArg x3 (funext fun a => Fin.ext (by match a with | ⟨0, _⟩ => rfl | ⟨1, _⟩ => rfl)))

/-- The normaliser broadcast along a row, read at (r, k), is the column's entry for row r. -/
theorem bcast_col (x2 : (⟨S1600000, .i32⟩ : BufTy).Contents (Elt Ideal)) (r : Fin 100000) (k o : Fin 128) :
    val_main_v6 (F := Ideal) x2 (idx_main_v19 (ix2 (n0 := 100000) (n1 := 128) r k))
      = val_main_v6 (F := Ideal) x2 (rowOf (ix2 (n0 := 100000) (n1 := 128) r o)) :=
  congrArg _ (funext fun a => Fin.ext (by match a with | ⟨0, _⟩ => rfl | ⟨1, _⟩ => rfl))

theorem ref_projection (x0 : (⟨S100000x128, .f32⟩ : BufTy).Contents (Elt Ideal)) (x1 x2 : (⟨S1600000, .i32⟩ : BufTy).Contents (Elt Ideal))
    (x3 : (⟨S128x384, .f32⟩ : BufTy).Contents (Elt Ideal)) (x4 : (⟨S128, .f32⟩ : BufTy).Contents (Elt Ideal)) :
    val_main_v40 (F := Ideal) x0 x1 x2 x3 x4
      = linOut x0 (val_main_v18 (F := Ideal) x0 x1 x2) (val_main_v32 (F := Ideal) x0 x1 x2) (val_main_v6 (F := Ideal) x2)
          (wBlock0 x3) (wBlock1 x3) (wBlock2 x3) (biasRow x4) := by
  funext i
  obtain ⟨r, o, rfl⟩ : ∃ r o, i = ix2 (n0 := 100000) (n1 := 128) r o := ⟨i 0, i 1, eq_ix2 i⟩
  rw [v40_at, sum_three_blocks]
  show _ = ((∑ k : Fin 128, x0 (ix2 (n0 := 100000) (n1 := 128) r k) * wBlock0 x3 (ix2 (n0 := 128) (n1 := 128) k o)
      + ∑ k : Fin 128, (val_main_v18 (F := Ideal) x0 x1 x2 (ix2 (n0 := 100000) (n1 := 128) r k)
          * val_main_v6 (F := Ideal) x2 (rowOf (ix2 (n0 := 100000) (n1 := 128) r o))) * wBlock1 x3 (ix2 (n0 := 128) (n1 := 128) k o))
      + ∑ k : Fin 128, (val_main_v32 (F := Ideal) x0 x1 x2 (ix2 (n0 := 100000) (n1 := 128) r k)
          * val_main_v6 (F := Ideal) x2 (rowOf (ix2 (n0 := 100000) (n1 := 128) r o))) * wBlock2 x3 (ix2 (n0 := 128) (n1 := 128) k o))
    + biasRow x4 (ix2 (n0 := 1) (n1 := 128) 0 o)
  refine congrArg₂ (· + ·) (congrArg₂ (· + ·) (congrArg₂ (· + ·) ?_ ?_) ?_) (biasRow_apply x4 o).symm
  · exact Finset.sum_congr rfl fun j _ => by rw [cat_block0, wBlock0_apply]
  · exact Finset.sum_congr rfl fun j _ => by
      rw [cat_block1, wBlock1_apply, val_main_v20_apply, val_main_v19_apply, bcast_col x2 r j o]; rfl
  · exact Finset.sum_congr rfl fun j _ => by
      rw [cat_block2, wBlock2_apply, val_main_v34_apply, val_main_v33_apply]
      exact congrArg₂ (· * ·) (congrArg₂ (· * ·) rfl (bcast_col x2 r j o)) rfl

end Cert.ReferenceIdeal.RefValue

end
-- ==== Proof.HostStretches.lean ====
/-
  The host operations between the kernel regions, read stretch by stretch from ANY contents of the buffers a stretch
  starts from.

  The program's host side is: the in-degree and its power `-1/2`, guarded against a zero degree by a select; the
  normaliser as a column and the column's entrywise square; then, twice, the neighbour aggregation (gather the rows
  named by the source words, add them into the rows named by the destination words); and last the three 128-column
  blocks of the weight matrix, transposed, and the bias as a row. Each stretch is stated as a function of the
  buffers it reads, for an arbitrary valuation, so that nothing of an earlier stretch is ever unfolded; the neighbour
  aggregation is one named function of the array it gathers from, and is never opened.
-/
import proofs.«163932_j26216480375292_2_alg».proof.Proof.Gen.KernelIdeal.Launch
import proofs.«163932_j26216480375292_2_alg».proof.Proof.DegreeGuard
import proofs.«163932_j26216480375292_2_alg».proof.Proof.RefProjection
import Idealize.ShloMosaic.Lib.StableHlo.Run

noncomputable section

namespace Cert.KernelIdeal.Boundaries

open Idealize.ShloMosaic Idealize.ShloMosaic.TcCoe Idealize.SL.Sem Idealize.ShloMosaic.ValueIdx Idealize.ShloMosaic.StableHlo
open Cert.KernelIdeal Cert.KernelIdeal.Gen Cert.KernelIdeal.HostValues

/-- The neighbour aggregation both programs apply to a node-feature array: gather the rows the source words name (a
    negative word wrapped once by the node count), then add each gathered row into the row its destination word
    names. It is carried as one function and never opened. -/
def agg (x : FVec Ideal S100000x128 .f32) (src dst : IVec S1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The normaliser column: the unguarded power of the in-degree, one entry per row. -/
abbrev colOf (dst : IVec S1600000 32) : FVec Ideal S100000x1 .f32 :=
  broadcastInDim S100000x1 ![0] bcast_S100000_S100000x1_0 (normOf dst)

/-! ## Each stretch of host operations, from ANY contents `Wv` of the buffers it starts from -/

section Stretches
variable (Wv : Valuation τ sig (Elt Ideal))

theorem pre_v5 : StableHlo.after (hostOps0 (F := Ideal)) Wv (Proc.devRef .tc main_v5)
    = cmpf .ogt (degOf (Wv (Proc.devRef .tc main_arg2))) (broadcastInDim S100000 ![] bcast_S_S100000 (constant (F := Ideal) S_ .f32 0x00000000#32)) := by
  after_results
  rfl
theorem pre_v7 : StableHlo.after (hostOps0 (F := Ideal)) Wv (Proc.devRef .tc main_v7) = normOf (Wv (Proc.devRef .tc main_arg2)) := by
  after_results
  rfl
theorem pre_cst3 : StableHlo.after (hostOps0 (F := Ideal)) Wv (Proc.devRef .tc main_cst_3) = constant (F := Ideal) S_ .f32 0x00000000#32 := by
  after_results

/-- The outlined `where`: a select between its second and (broadcast) third operand on its first. -/
theorem where_v8 : StableHlo.after (hostOps0_1 (F := Ideal)) Wv (Proc.devRef .tc main_v8)
    = select (Wv (Proc.devRef .tc main_v5)) (Wv (Proc.devRef .tc main_v7)) (broadcastInDim S100000 ![] bcast_S_S100000 (Wv (Proc.devRef .tc main_cst_3))) := by
  after_results
  rfl

theorem col_v9 : StableHlo.after (hostOps0_2 (F := Ideal)) Wv (Proc.devRef .tc main_v9)
    = broadcastInDim S100000x1 ![0] bcast_S100000_S100000x1_0 (Wv (Proc.devRef .tc main_v8)) := by
  after_results
theorem col_v10 : StableHlo.after (hostOps0_2 (F := Ideal)) Wv (Proc.devRef .tc main_v10)
    = mulf (F := Ideal) (φ := .f32) (broadcastInDim S100000x1 ![0] bcast_S100000_S100000x1_0 (Wv (Proc.devRef .tc main_v8)))
        (broadcastInDim S100000x1 ![0] bcast_S100000_S100000x1_0 (Wv (Proc.devRef .tc main_v8))) := by
  after_results

theorem hop1_v21 : StableHlo.after (hostOps1 (F := Ideal)) Wv (Proc.devRef .tc main_v21)
    = agg (Wv (Proc.devRef .tc main_v11)) (Wv (Proc.devRef .tc main_arg1)) (Wv (Proc.devRef .tc main_arg2)) := by
  after_results
  rfl
theorem hop1_v9 : StableHlo.after (hostOps1 (F := Ideal)) Wv (Proc.devRef .tc main_v9) = Wv (Proc.devRef .tc main_v9) := by
  after_results
theorem hop1_v10 : StableHlo.after (hostOps1 (F := Ideal)) Wv (Proc.devRef .tc main_v10) = Wv (Proc.devRef .tc main_v10) := by
  after_results

theorem hop2_v32 : StableHlo.after (hostOps2 (F := Ideal)) Wv (Proc.devRef .tc main_v32)
    = agg (Wv (Proc.devRef .tc main_v22)) (Wv (Proc.devRef .tc main_arg1)) (Wv (Proc.devRef .tc main_arg2)) := by
  after_results
  rfl
theorem hop2_v21 : StableHlo.after (hostOps2 (F := Ideal)) Wv (Proc.devRef .tc main_v21) = Wv (Proc.devRef .tc main_v21) := by
  after_results
theorem hop2_v9 : StableHlo.after (hostOps2 (F := Ideal)) Wv (Proc.devRef .tc main_v9) = Wv (Proc.devRef .tc main_v9) := by
  after_results
theorem hop2_arg0 : StableHlo.after (hostOps2 (F := Ideal)) Wv (Proc.devRef .tc main_arg0) = Wv (Proc.devRef .tc main_arg0) := by
  after_results
theorem hop2_v34 : StableHlo.after (hostOps2 (F := Ideal)) Wv (Proc.devRef .tc main_v34) = Cert.ReferenceIdeal.RefValue.wBlock0 (Wv (Proc.devRef .tc main_arg3)) := by
  after_results
theorem hop2_v36 : StableHlo.after (hostOps2 (F := Ideal)) Wv (Proc.devRef .tc main_v36) = Cert.ReferenceIdeal.RefValue.wBlock1 (Wv (Proc.devRef .tc main_arg3)) := by
  after_results
theorem hop2_v38 : StableHlo.after (hostOps2 (F := Ideal)) Wv (Proc.devRef .tc main_v38) = Cert.ReferenceIdeal.RefValue.wBlock2 (Wv (Proc.devRef .tc main_arg3)) := by
  after_results
theorem hop2_v39 : StableHlo.after (hostOps2 (F := Ideal)) Wv (Proc.devRef .tc main_v39) = Cert.ReferenceIdeal.RefValue.biasRow (Wv (Proc.devRef .tc main_arg4)) := by
  after_results
  rfl

end Stretches

end Cert.KernelIdeal.Boundaries

end
-- ==== Proof.LibColumns.lean ====
/-
  One column broadcast over many, and a vector recast as a column.

  Two layout facts read at an index, for any extents: an array of shape [a, 1] (one value per row) broadcast to
  [a, b] reads at (p, c) the value of row p; and a vector of length a recast to shape [a, 1] reads at (p, 0) the
  vector's entry p.
-/
import Idealize.ShloMosaic.Lib.Pipeline.Value
import Idealize.ShloMosaic.Lib.ValueIdx

noncomputable section

namespace Cert.Lib.Columns

open Idealize.ShloMosaic Idealize.ShloMosaic.ValueIdx

variable {α : Type}

/-- An [a, 1] array broadcast to [a, b] reads, at (p, c), the operand's row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length a recast to shape [a, 1] reads, at (p, 0), the vector's entry p. -/
theorem shapeCast_a_a1_apply {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) := by
  refine shapeCast_apply x h (ix2 p (0 : Fin 1)) (ix1 p) ?_
  rw [Shape.rowMajor_val_one, Shape.rowMajor_val_two]
  show p.val = p.val * 1 + 0
  omega

end Cert.Lib.Columns

end
-- ==== Proof.ScaleRegion0.lean ====
/-
  The first row-scaling region, as one whole-array function.

  The region walks ten blocks of 10000 rows. At each block its body multiplies the block of the feature array, entry
  by entry, by the block of the normaliser column broadcast along the 128 feature columns, and writes the product
  back as the same block of the output. Block `t` of each of the three arrays sits at rows `10000 · t + p`, and the
  ten blocks tile the 100000 rows, so the output array ends as `rowScale` of the two input arrays as the region finds
  them: entry `(r, k)` is the feature entry `(r, k)` times the column's entry `(r, 0)`.
-/
import proofs.«163932_j26216480375292_2_alg».proof.Proof.Gen.KernelIdeal.Frame
import proofs.«163932_j26216480375292_2_alg».proof.Proof.Formulas
import proofs.«163932_j26216480375292_2_alg».proof.Proof.LibColumns
import Idealize.ShloMosaic.Lib.Pipeline.Value
import Idealize.ShloMosaic.Lib.ValueIdx

noncomputable section

namespace Cert.KernelIdeal.RegionValues

open Idealize.ShloMosaic Idealize.ShloMosaic.TcCoe Idealize.SL.Sem Cert.KernelIdeal Cert.KernelIdeal.Gen Cert.TagConv
open Idealize.ShloMosaic.ValueIdx
open Idealize.ShloMosaic.Pipeline (Dat)

variable (V : (c : Dev nD) → (b : Ref sig .tc) → Buf (Elt Ideal) ((c : Thread nD τ).loc b))

/-- The zero offset of a whole-buffer access. -/
theorem scale0_hz : (![0, 0] : Fin 2 → Nat) = fun _ => 0 := funext fun a => by fin_cases a <;> rfl

/-- The body's payload at an index (p, q): the first block's entry there times the column block's entry of row p. -/
theorem scale0_payload (x0 : Vec Ideal S10000x128 .f32) (x1 : Vec Ideal S10000x1 .f32) (p : Fin 10000) (q : Fin 128) :
    k0_pay1 (F := Ideal) x0 x1 (ix2 p q) = x0 (ix2 p q) * x1 (ix2 p (0 : Fin 1)) := by
  unfold k0_pay1
  rw [mulf_apply, shapeCast_self, Cert.Lib.Columns.broadcastTo_a1_ab_apply]

/-- What the body leaves in the output buffer, at an index, from the two input blocks. -/
theorem scale0_point (x0 : Vec Ideal S10000x128 .f32) (x1 : Vec Ideal S10000x1 .f32) (p : Fin 10000) (q : Fin 128) :
    out0_2 (F := Ideal) x0 x1 (ix2 p q) = x0 (ix2 p q) * x1 (ix2 p (0 : Fin 1)) := by
  unfold out0_2
  rw [View.canon_unit_zero scale0_hz]
  simp only [View.ld_unit_zero (S := S10000x128) scale0_hz, View.ld_unit_zero (S := S10000x1) scale0_hz]
  exact scale0_payload x0 x1 p q

/-- The index maps over the grid: both inputs move with the output along the rows, the column block index is 0,
    and the output's row block index is below 10. -/
theorem scale0_idx : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = 0
    ∧ win0_2.index t (1 : Fin 2) = 0
    ∧ win0_2.index t (0 : Fin 2) ≤ 9 :=
  (by decide +kernel : ∀ t : Fin grid0.N, _)

/-- Every row block is some point's. -/
theorem scale0_onto : ∀ q0 : Fin 10, ∃ t : Fin cfg0.N, win0_2.index t = ![q0.val, 0] :=
  (by decide +kernel : ∀ q0 : Fin 10, ∃ t : Fin grid0.N, win0_2.index t = ![q0.val, 0])

/-- What point t writes back is block t of the row-scaled array. -/
theorem scale0_flushed (c : Dev nD) (t : Fin cfg0.N) :
    (dat0 (F := Ideal) V c).flushed 2 t
      = ((cfg0.win 2).blk t).view.read (Elt Ideal) (rowScale (V c main_arg0) (V c main_v9)) := by
  show (cfg0.win 2).cut (grid0.coords t) ((dat0 (F := Ideal) V c).after 2 t) = _
  rw [after0_2]
  obtain ⟨e0, e1, e2, e3, e4, e5⟩ := scale0_idx t
  funext j
  obtain ⟨p, q, rfl⟩ : ∃ (p : Fin 10000) (q : Fin 128), j = ix2 p q := ⟨j 0, j 1, eq_ix2 j⟩
  show out0_2 (F := Ideal) (iblk0 V c 0 t) (iblk0 V c 1 t) (ix2 p q)
    = rowScale (V c main_arg0) (V c main_v9) (((cfg0.win 2).blk t).view.emb (ix2 p q))
  rw [scale0_point]
  have h0 : ((cfg0.win 0).blk t).view.emb (ix2 p q) = ((cfg0.win 2).blk t).view.emb (ix2 p q) := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * q.val = win0_2.index t (1 : Fin 2) * 128 + 1 * q.val; omega
  have h1 : ((cfg0.win 1).blk t).view.emb (ix2 p (0 : Fin 1)) = rowOf (((cfg0.win 2).blk t).view.emb (ix2 p q)) := by
    funext a; apply Fin.ext
    match a with
    | ⟨0, _⟩ => show win0_1.index t (0 : Fin 2) * 10000 + 1 * p.val = win0_2.index t (0 : Fin 2) * 10000 + 1 * p.val; omega
    | ⟨1, _⟩ => show win0_1.index t (1 : Fin 2) * 1 + 1 * 0 = 0; omega
  exact congrArg₂ (fun a b : EReal => a * b) (congrArg (V c main_arg0) h0) (congrArg (V c main_v9) h1)

/-- An index of the array is in point t's block iff each coordinate is in the block's range on its axis. -/
theorem scale0_mem_blk (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v11).slice (win0_2.rect t)).set ↔ _
  rw [View.set_slice_whole, Rect.mem_set_unit]
  exact Iff.rfl

/-- Every index of the array is in the block of the point numbered by its row divided by 10000. -/
theorem scale0_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := scale0_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [scale0_mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The output array after the region: each row of the first input scaled by that row's entry of the column input. -/
theorem scale0_final (c : Dev nD) :
    (dat0 (F := Ideal) V c).arrAt 2 cfg0.N = rowScale (V c main_arg0) (V c main_v9) :=
  (dat0 (F := Ideal) V c).arrAt_eq_of_cover 2 (rowScale (V c main_arg0) (V c main_v9)) (fun t _ => scale0_flushed V c t) (scale0_cover)

end Cert.KernelIdeal.RegionValues

end
-- ==== Proof.ScaleRegion1.lean ====
/-
  The second row-scaling region, as one whole-array function.

  The same region as the first, over the first hop's sum and the squared normaliser column: ten blocks of 10000
  rows, the body a product of the feature block with the column block broadcast along the 128 columns, each block of
  the output written back whole. The output array ends as `rowScale` of the two input arrays as the region finds them.
-/
import proofs.«163932_j26216480375292_2_alg».proof.Proof.Gen.KernelIdeal.Frame
import proofs.«163932_j26216480375292_2_alg».proof.Proof.Formulas
import proofs.«163932_j26216480375292_2_alg».proof.Proof.LibColumns
import Idealize.ShloMosaic.Lib.Pipeline.Value
import Idealize.ShloMosaic.Lib.ValueIdx

noncomputable section

namespace Cert.KernelIdeal.RegionValues

open Idealize.ShloMosaic Idealize.ShloMosaic.TcCoe Idealize.SL.Sem Cert.KernelIdeal Cert.KernelIdeal.Gen Cert.TagConv
open Idealize.ShloMosaic.ValueIdx
open Idealize.ShloMosaic.Pipeline (Dat)

variable (V : (c : Dev nD) → (b : Ref sig .tc) → Buf (Elt Ideal) ((c : Thread nD τ).loc b))

/-- The zero offset of a whole-buffer access. -/
theorem scale1_hz : (![0, 0] : Fin 2 → Nat) = fun _ => 0 := funext fun a => by fin_cases a <;> rfl

/-- The body's payload at an index (p, q): the first block's entry there times the column block's entry of row p. -/
theorem scale1_payload (x0 : Vec Ideal S10000x128 .f32) (x1 : Vec Ideal S10000x1 .f32) (p : Fin 10000) (q : Fin 128) :
    k1_pay1 (F := Ideal) x0 x1 (ix2 p q) = x0 (ix2 p q) * x1 (ix2 p (0 : Fin 1)) := by
  unfold k1_pay1
  rw [mulf_apply, shapeCast_self, shapeCast_self, Cert.Lib.Columns.broadcastTo_a1_ab_apply]

/-- What the body leaves in the output buffer, at an index, from the two input blocks. -/
theorem scale1_point (x0 : Vec Ideal S10000x128 .f32) (x1 : Vec Ideal S10000x1 .f32) (p : Fin 10000) (q : Fin 128) :
    out1_2 (F := Ideal) x0 x1 (ix2 p q) = x0 (ix2 p q) * x1 (ix2 p (0 : Fin 1)) := by
  unfold out1_2
  rw [View.canon_unit_zero scale1_hz]
  simp only [View.ld_unit_zero (S := S10000x128) scale1_hz, View.ld_unit_zero (S := S10000x1) scale1_hz]
  exact scale1_payload x0 x1 p q

/-- The index maps over the grid: both inputs move with the output along the rows, the column block index is 0,
    and the output's row block index is below 10. -/
theorem scale1_idx : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = 0
    ∧ win1_2.index t (1 : Fin 2) = 0
    ∧ win1_2.index t (0 : Fin 2) ≤ 9 :=
  (by decide +kernel : ∀ t : Fin grid1.N, _)

/-- Every row block is some point's. -/
theorem scale1_onto : ∀ q0 : Fin 10, ∃ t : Fin cfg1.N, win1_2.index t = ![q0.val, 0] :=
  (by decide +kernel : ∀ q0 : Fin 10, ∃ t : Fin grid1.N, win1_2.index t = ![q0.val, 0])

/-- What point t writes back is block t of the row-scaled array. -/
theorem scale1_flushed (c : Dev nD) (t : Fin cfg1.N) :
    (dat1 (F := Ideal) V c).flushed 2 t
      = ((cfg1.win 2).blk t).view.read (Elt Ideal) (rowScale (V c main_v21) (V c main_v10)) := by
  show (cfg1.win 2).cut (grid1.coords t) ((dat1 (F := Ideal) V c).after 2 t) = _
  rw [after1_2]
  obtain ⟨e0, e1, e2, e3, e4, e5⟩ := scale1_idx t
  funext j
  obtain ⟨p, q, rfl⟩ : ∃ (p : Fin 10000) (q : Fin 128), j = ix2 p q := ⟨j 0, j 1, eq_ix2 j⟩
  show out1_2 (F := Ideal) (iblk1 V c 0 t) (iblk1 V c 1 t) (ix2 p q)
    = rowScale (V c main_v21) (V c main_v10) (((cfg1.win 2).blk t).view.emb (ix2 p q))
  rw [scale1_point]
  have h0 : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 128 + 1 * q.val = win1_2.index t (1 : Fin 2) * 128 + 1 * q.val; omega
  have h1 : ((cfg1.win 1).blk t).view.emb (ix2 p (0 : Fin 1)) = rowOf (((cfg1.win 2).blk t).view.emb (ix2 p q)) := by
    funext a; apply Fin.ext
    match a with
    | ⟨0, _⟩ => show win1_1.index t (0 : Fin 2) * 10000 + 1 * p.val = win1_2.index t (0 : Fin 2) * 10000 + 1 * p.val; omega
    | ⟨1, _⟩ => show win1_1.index t (1 : Fin 2) * 1 + 1 * 0 = 0; omega
  exact congrArg₂ (fun a b : EReal => a * b) (congrArg (V c main_v21) h0) (congrArg (V c main_v10) h1)

/-- An index of the array is in point t's block iff each coordinate is in the block's range on its axis. -/
theorem scale1_mem_blk (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v22).slice (win1_2.rect t)).set ↔ _
  rw [View.set_slice_whole, Rect.mem_set_unit]
  exact Iff.rfl

/-- Every index of the array is in the block of the point numbered by its row divided by 10000. -/
theorem scale1_cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := scale1_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [scale1_mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The output array after the region: each row of the first input scaled by that row's entry of the column input. -/
theorem scale1_final (c : Dev nD) :
    (dat1 (F := Ideal) V c).arrAt 2 cfg1.N = rowScale (V c main_v21) (V c main_v10) :=
  (dat1 (F := Ideal) V c).arrAt_eq_of_cover 2 (rowScale (V c main_v21) (V c main_v10)) (fun t _ => scale1_flushed V c t) (scale1_cover)

end Cert.KernelIdeal.RegionValues

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LinearPayload.lean ====
/-
  The projection body's stored value read at an index.

  At the ideal values (floats extended reals, every operation exact, narrowing casts the identity) the value the
  projection body stores, read at row p and column o of its block, is

    ((Σₖ x0(p,k)·w0(k,o) + Σₖ (x1(p,k)·n(p,0))·w1(k,o)) + Σₖ (x2(p,k)·n(p,0))·w2(k,o)) + b(0,o):

  three plain matrix products into zero accumulators, the second and third with their left operand scaled row-wise by the
  column n, summed in the body's order, plus the bias row broadcast over the rows.  No distributivity is used.
-/
import proofs.«163932_j26216480375292_2_alg».proof.Proof.Gen.KernelIdeal.Skeleton
import proofs.«163932_j26216480375292_2_alg».proof.Proof.Formulas
import proofs.«163932_j26216480375292_2_alg».proof.Proof.LibColumns
import proofs.«163932_j26216480375292_2_alg».proof.Proof.LibPlainDot
import Idealize.ShloMosaic.Lib.ValueLayout
noncomputable section
namespace Cert.KernelIdeal.RegionValues
open Idealize.ShloMosaic Idealize.ShloMosaic.ValueIdx Idealize.SL.Sem Cert.KernelIdeal Cert.KernelIdeal.Gen Cert.TagConv

/-- The body's dimension numbers are the plain "rows × contraction times contraction × columns" ones. -/
theorem linear_dot_eq : dot_S5000x128_S128x128_S5000x128_1_0_0_1_n_n = DotDims.plain 5000 128 128 := rfl

/-- The projection body's stored value at (p, o), from the blocks it reads. -/
theorem linear_payload (n : Vec Ideal S5000x1 .f32) (x0 x1 x2 : Vec Ideal S5000x128 .f32) (w0 w1 w2 : Vec Ideal S128x128 .f32) (b : Vec Ideal S1x128 .f32) (p : Fin 5000) (o : Fin 128) :
    k2_pay1 (F := Ideal) n x0 x1 x2 w0 w1 w2 b (ix2 p o)
      = ((∑ k : Fin 128, x0 (ix2 p k) * w0 (ix2 k o) + ∑ k : Fin 128, (x1 (ix2 p k) * n (ix2 p 0)) * w1 (ix2 k o))
          + ∑ k : Fin 128, (x2 (ix2 p k) * n (ix2 p 0)) * w2 (ix2 k o)) + b (ix2 0 o) := by
  unfold k2_pay1
  rw [addf_apply, addf_apply, addf_apply, linear_dot_eq]
  rw [Cert.Lib.PlainDot.matmul_plain_zero_apply, Cert.Lib.PlainDot.matmul_plain_zero_apply, Cert.Lib.PlainDot.matmul_plain_zero_apply]
  simp only [truncf_apply, shapeCast_self, mulf_apply]
  rw [broadcastTo_1b_ab_apply]
  simp only [Cert.Lib.Columns.broadcastTo_a1_ab_apply]

end Cert.KernelIdeal.RegionValues
end
-- ==== Proof.LinearRegion.lean ====
/-
  The projection region, as one whole-array function.

  The region walks twenty blocks of 5000 rows. At each block its body reads the block of the three feature arrays and
  of the normaliser column at the same rows, and the three 128 × 128 weight blocks and the bias row whole, and writes
  back the body's value as the same block of the output. Block `t` sits at rows `5000 · t + p`; the weight blocks and
  the bias are the whole arrays at every point; the twenty blocks tile the 100000 rows. So the output array ends as
  `linOut` of the eight arrays as the region finds them, entry `(r, o)` being the body's value at the row `r`.
-/
import proofs.«163932_j26216480375292_2_alg».proof.Proof.Gen.KernelIdeal.Frame
import proofs.«163932_j26216480375292_2_alg».proof.Proof.Formulas
import proofs.«163932_j26216480375292_2_alg».proof.Proof.LinearPayload
import Idealize.ShloMosaic.Lib.Pipeline.Value
import Idealize.ShloMosaic.Lib.ValueIdx

noncomputable section

namespace Cert.KernelIdeal.RegionValues

open Idealize.ShloMosaic Idealize.ShloMosaic.TcCoe Idealize.SL.Sem Cert.KernelIdeal Cert.KernelIdeal.Gen Cert.TagConv
open Idealize.ShloMosaic.ValueIdx
open Idealize.ShloMosaic.Pipeline (Dat)
open scoped BigOperators

variable (V : (c : Dev nD) → (b : Ref sig .tc) → Buf (Elt Ideal) ((c : Thread nD τ).loc b))

/-- The zero offset of a whole-buffer access. -/
theorem linear_hz : (![0, 0] : Fin 2 → Nat) = fun _ => 0 := funext fun a => by fin_cases a <;> rfl

/-- Sums and products of equal extended reals are equal. -/
theorem linear_add_congr {a a' b b' : EReal} (ha : a = a') (hb : b = b') : a + b = a' + b' := by rw [ha, hb]
theorem linear_mul_congr {a a' b b' : EReal} (ha : a = a') (hb : b = b') : a * b = a' * b' := by rw [ha, hb]

/-- What the body leaves in the output buffer, at an index (p, o), from the eight input blocks: the three row blocks'
    row p against the three matrices' column o, the second and third scaled by the column block's entry of row p,
    plus the bias entry o. -/
theorem linear_point (x0 x1 x2 : Vec Ideal S5000x128 .f32) (x3 : Vec Ideal S5000x1 .f32)
    (x4 x5 x6 : Vec Ideal S128x128 .f32) (x7 : Vec Ideal S1x128 .f32) (p : Fin 5000) (o : Fin 128) :
    out2_8 (F := Ideal) x0 x1 x2 x3 x4 x5 x6 x7 (ix2 p o)
      = ((∑ k : Fin 128, x0 (ix2 p k) * x4 (ix2 k o) + ∑ k : Fin 128, (x1 (ix2 p k) * x3 (ix2 p 0)) * x5 (ix2 k o))
          + ∑ k : Fin 128, (x2 (ix2 p k) * x3 (ix2 p 0)) * x6 (ix2 k o)) + x7 (ix2 0 o) := by
  unfold out2_8
  rw [View.canon_unit_zero linear_hz]
  simp only [View.ld_unit_zero (S := S5000x128) linear_hz, View.ld_unit_zero (S := S5000x1) linear_hz,
    View.ld_unit_zero (S := S128x128) linear_hz, View.ld_unit_zero (S := S1x128) linear_hz]
  exact linear_payload x3 x0 x1 x2 x4 x5 x6 x7 p o

/-- The index maps over the grid: the three row inputs and the column input move with the output along the rows,
    every column block index is 0, the matrices and the bias sit at block (0, 0), and the output's row block
    index is below 20. -/
theorem linear_idx : ∀ t : Fin cfg2.N,
    (win2_0.index t (0 : Fin 2) = win2_8.index t (0 : Fin 2) ∧ win2_0.index t (1 : Fin 2) = 0)
    ∧ (win2_1.index t (0 : Fin 2) = win2_8.index t (0 : Fin 2) ∧ win2_1.index t (1 : Fin 2) = 0)
    ∧ (win2_2.index t (0 : Fin 2) = win2_8.index t (0 : Fin 2) ∧ win2_2.index t (1 : Fin 2) = 0)
    ∧ (win2_3.index t (0 : Fin 2) = win2_8.index t (0 : Fin 2) ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ win2_8.index t (1 : Fin 2) = 0 ∧ win2_8.index t (0 : Fin 2) ≤ 19 :=
  (by decide +kernel : ∀ t : Fin grid2.N, _)

/-- Every row block is some point's. -/
theorem linear_onto : ∀ q0 : Fin 20, ∃ t : Fin cfg2.N, win2_8.index t = ![q0.val, 0] :=
  (by decide +kernel : ∀ q0 : Fin 20, ∃ t : Fin grid2.N, win2_8.index t = ![q0.val, 0])

/-- Row p of input 0's block at point t is row (i 0) of its array, when (i 0) is the output block's row p. -/
theorem linear_read0 (c : Dev nD) (t : Fin cfg2.N) (p : Fin 5000) (k : Fin 128) (i : S100000x128.Idx)
    (hi0 : (i 0).val = win2_8.index t (0 : Fin 2) * 5000 + 1 * p.val) :
    (iblk2 V c 0 t : Vec Ideal S5000x128 .f32) (ix2 p k) = V c main_arg0 (ix2 (n0 := 100000) (n1 := 128) (i 0) k) := by
  obtain ⟨a0, a1⟩ := (linear_idx t).1
  have h : ((cfg2.win 0).blk t).view.emb (ix2 p k) = ix2 (n0 := 100000) (n1 := 128) (i 0) k := by
    funext a; apply Fin.ext
    match a with
    | ⟨0, _⟩ => show win2_0.index t (0 : Fin 2) * 5000 + 1 * p.val = (i 0).val; omega
    | ⟨1, _⟩ => show win2_0.index t (1 : Fin 2) * 128 + 1 * k.val = k.val; omega
  exact congrArg (V c main_arg0) h

/-- Row p of input 1's block at point t is row (i 0) of its array, when (i 0) is the output block's row p. -/
theorem linear_read1 (c : Dev nD) (t : Fin cfg2.N) (p : Fin 5000) (k : Fin 128) (i : S100000x128.Idx)
    (hi0 : (i 0).val = win2_8.index t (0 : Fin 2) * 5000 + 1 * p.val) :
    (iblk2 V c 1 t : Vec Ideal S5000x128 .f32) (ix2 p k) = V c main_v21 (ix2 (n0 := 100000) (n1 := 128) (i 0) k) := by
  obtain ⟨a0, a1⟩ := (linear_idx t).2.1
  have h : ((cfg2.win 1).blk t).view.emb (ix2 p k) = ix2 (n0 := 100000) (n1 := 128) (i 0) k := by
    funext a; apply Fin.ext
    match a with
    | ⟨0, _⟩ => show win2_1.index t (0 : Fin 2) * 5000 + 1 * p.val = (i 0).val; omega
    | ⟨1, _⟩ => show win2_1.index t (1 : Fin 2) * 128 + 1 * k.val = k.val; omega
  exact congrArg (V c main_v21) h

/-- Row p of input 2's block at point t is row (i 0) of its array, when (i 0) is the output block's row p. -/
theorem linear_read2 (c : Dev nD) (t : Fin cfg2.N) (p : Fin 5000) (k : Fin 128) (i : S100000x128.Idx)
    (hi0 : (i 0).val = win2_8.index t (0 : Fin 2) * 5000 + 1 * p.val) :
    (iblk2 V c 2 t : Vec Ideal S5000x128 .f32) (ix2 p k) = V c main_v32 (ix2 (n0 := 100000) (n1 := 128) (i 0) k) := by
  obtain ⟨a0, a1⟩ := (linear_idx t).2.2.1
  have h : ((cfg2.win 2).blk t).view.emb (ix2 p k) = ix2 (n0 := 100000) (n1 := 128) (i 0) k := by
    funext a; apply Fin.ext
    match a with
    | ⟨0, _⟩ => show win2_2.index t (0 : Fin 2) * 5000 + 1 * p.val = (i 0).val; omega
    | ⟨1, _⟩ => show win2_2.index t (1 : Fin 2) * 128 + 1 * k.val = k.val; omega
  exact congrArg (V c main_v32) h

/-- Row p of the column input's block at point t is row (i 0) of the column array. -/
theorem linear_read3 (c : Dev nD) (t : Fin cfg2.N) (p : Fin 5000) (i : S100000x128.Idx)
    (hi0 : (i 0).val = win2_8.index t (0 : Fin 2) * 5000 + 1 * p.val) :
    (iblk2 V c 3 t : Vec Ideal S5000x1 .f32) (ix2 p (0 : Fin 1)) = V c main_v9 (rowOf i) := by
  obtain ⟨a0, a1⟩ := (linear_idx t).2.2.2.1
  have h : ((cfg2.win 3).blk t).view.emb (ix2 p (0 : Fin 1)) = rowOf i := by
    funext a; apply Fin.ext
    match a with
    | ⟨0, _⟩ => show win2_3.index t (0 : Fin 2) * 5000 + 1 * p.val = (i 0).val; omega
    | ⟨1, _⟩ => show win2_3.index t (1 : Fin 2) * 1 + 1 * 0 = 0; omega
  exact congrArg (V c main_v9) h

/-- Input 4's one block is its whole array: entry (k, o) of the block is entry (k, i 1) of the array, when (i 1) is
    the output block's column o. -/
theorem linear_read4 (c : Dev nD) (t : Fin cfg2.N) (k o : Fin 128) (i : S100000x128.Idx)
    (hi1 : (i 1).val = win2_8.index t (1 : Fin 2) * 128 + 1 * o.val) :
    (iblk2 V c 4 t : Vec Ideal S128x128 .f32) (ix2 k o) = V c main_v34 (ix2 (n0 := 128) (n1 := 128) k (i 1)) := by
  obtain ⟨a0, a1⟩ := (linear_idx t).2.2.2.2.1
  have a8 := (linear_idx t).2.2.2.2.2.2.2.2.1
  have h : ((cfg2.win 4).blk t).view.emb (ix2 k o) = ix2 (n0 := 128) (n1 := 128) k (i 1) := by
    funext a; apply Fin.ext
    match a with
    | ⟨0, _⟩ => show win2_4.index t (0 : Fin 2) * 128 + 1 * k.val = k.val; omega
    | ⟨1, _⟩ => show win2_4.index t (1 : Fin 2) * 128 + 1 * o.val = (i 1).val; omega
  exact congrArg (V c main_v34) h

/-- Input 5's one block is its whole array: entry (k, o) of the block is entry (k, i 1) of the array, when (i 1) is
    the output block's column o. -/
theorem linear_read5 (c : Dev nD) (t : Fin cfg2.N) (k o : Fin 128) (i : S100000x128.Idx)
    (hi1 : (i 1).val = win2_8.index t (1 : Fin 2) * 128 + 1 * o.val) :
    (iblk2 V c 5 t : Vec Ideal S128x128 .f32) (ix2 k o) = V c main_v36 (ix2 (n0 := 128) (n1 := 128) k (i 1)) := by
  obtain ⟨a0, a1⟩ := (linear_idx t).2.2.2.2.2.1
  have a8 := (linear_idx t).2.2.2.2.2.2.2.2.1
  have h : ((cfg2.win 5).blk t).view.emb (ix2 k o) = ix2 (n0 := 128) (n1 := 128) k (i 1) := by
    funext a; apply Fin.ext
    match a with
    | ⟨0, _⟩ => show win2_5.index t (0 : Fin 2) * 128 + 1 * k.val = k.val; omega
    | ⟨1, _⟩ => show win2_5.index t (1 : Fin 2) * 128 + 1 * o.val = (i 1).val; omega
  exact congrArg (V c main_v36) h

/-- Input 6's one block is its whole array: entry (k, o) of the block is entry (k, i 1) of the array, when (i 1) is
    the output block's column o. -/
theorem linear_read6 (c : Dev nD) (t : Fin cfg2.N) (k o : Fin 128) (i : S100000x128.Idx)
    (hi1 : (i 1).val = win2_8.index t (1 : Fin 2) * 128 + 1 * o.val) :
    (iblk2 V c 6 t : Vec Ideal S128x128 .f32) (ix2 k o) = V c main_v38 (ix2 (n0 := 128) (n1 := 128) k (i 1)) := by
  obtain ⟨a0, a1⟩ := (linear_idx t).2.2.2.2.2.2.1
  have a8 := (linear_idx t).2.2.2.2.2.2.2.2.1
  have h : ((cfg2.win 6).blk t).view.emb (ix2 k o) = ix2 (n0 := 128) (n1 := 128) k (i 1) := by
    funext a; apply Fin.ext
    match a with
    | ⟨0, _⟩ => show win2_6.index t (0 : Fin 2) * 128 + 1 * k.val = k.val; omega
    | ⟨1, _⟩ => show win2_6.index t (1 : Fin 2) * 128 + 1 * o.val = (i 1).val; omega
  exact congrArg (V c main_v38) h

/-- The bias input's one block is its whole array: entry (0, o) of the block is entry (0, i 1) of the array. -/
theorem linear_read7 (c : Dev nD) (t : Fin cfg2.N) (o : Fin 128) (i : S100000x128.Idx)
    (hi1 : (i 1).val = win2_8.index t (1 : Fin 2) * 128 + 1 * o.val) :
    (iblk2 V c 7 t : Vec Ideal S1x128 .f32) (ix2 (0 : Fin 1) o) = V c main_v39 (ix2 (n0 := 1) (n1 := 128) 0 (i 1)) := by
  obtain ⟨a0, a1⟩ := (linear_idx t).2.2.2.2.2.2.2.1
  have a8 := (linear_idx t).2.2.2.2.2.2.2.2.1
  have h : ((cfg2.win 7).blk t).view.emb (ix2 (0 : Fin 1) o) = ix2 (n0 := 1) (n1 := 128) 0 (i 1) := by
    funext a; apply Fin.ext
    match a with
    | ⟨0, _⟩ => show win2_7.index t (0 : Fin 2) * 1 + 1 * 0 = 0; omega
    | ⟨1, _⟩ => show win2_7.index t (1 : Fin 2) * 128 + 1 * o.val = (i 1).val; omega
  exact congrArg (V c main_v39) h

/-- What point t writes back is block t of the projected array. -/
theorem linear_flushed (c : Dev nD) (t : Fin cfg2.N) :
    (dat2 (F := Ideal) V c).flushed 8 t
      = ((cfg2.win 8).blk t).view.read (Elt Ideal)
          (linOut (V c main_arg0) (V c main_v21) (V c main_v32) (V c main_v9) (V c main_v34) (V c main_v36) (V c main_v38) (V c main_v39)) := by
  show (cfg2.win 8).cut (grid2.coords t) ((dat2 (F := Ideal) V c).after 8 t) = _
  rw [after2_8]
  funext j
  obtain ⟨p, o, rfl⟩ : ∃ (p : Fin 5000) (o : Fin 128), j = ix2 p o := ⟨j 0, j 1, eq_ix2 j⟩
  show out2_8 (F := Ideal) (iblk2 V c 0 t) (iblk2 V c 1 t) (iblk2 V c 2 t) (iblk2 V c 3 t) (iblk2 V c 4 t) (iblk2 V c 5 t) (iblk2 V c 6 t) (iblk2 V c 7 t) (ix2 p o)
    = linOut (V c main_arg0) (V c main_v21) (V c main_v32) (V c main_v9) (V c main_v34) (V c main_v36) (V c main_v38) (V c main_v39)
        (((cfg2.win 8).blk t).view.emb (ix2 p o))
  rw [linear_point]
  generalize hi : (((cfg2.win 8).blk t).view.emb (ix2 p o) : S100000x128.Idx) = i
  have hi0 : (i 0).val = win2_8.index t (0 : Fin 2) * 5000 + 1 * p.val := by rw [← hi]; rfl
  have hi1 : (i 1).val = win2_8.index t (1 : Fin 2) * 128 + 1 * o.val := by rw [← hi]; rfl
  unfold linOut
  exact linear_add_congr (linear_add_congr (linear_add_congr
      (Finset.sum_congr rfl fun k _ => linear_mul_congr (linear_read0 V c t p k i hi0) (linear_read4 V c t k o i hi1))
      (Finset.sum_congr rfl fun k _ => linear_mul_congr (linear_mul_congr (linear_read1 V c t p k i hi0) (linear_read3 V c t p i hi0)) (linear_read5 V c t k o i hi1)))
      (Finset.sum_congr rfl fun k _ => linear_mul_congr (linear_mul_congr (linear_read2 V c t p k i hi0) (linear_read3 V c t p i hi0)) (linear_read6 V c t k o i hi1)))
      (linear_read7 V c t o i hi1)

/-- An index of the array is in point t's block iff each coordinate is in the block's range on its axis. -/
theorem linear_mem_blk (t : Fin cfg2.N) (i : S100000x128.Idx) :
    i ∈ ((cfg2.win 8).blk t).view.set ↔ ∀ a : Fin 2, win2_8.index t a * S5000x128.size a ≤ (i a).val
      ∧ (i a).val < win2_8.index t a * S5000x128.size a + S5000x128.size a := by
  show i ∈ ((View.whole main_v40).slice (win2_8.rect t)).set ↔ _
  rw [View.set_slice_whole, Rect.mem_set_unit]
  exact Iff.rfl

/-- Every index of the array is in the block of the point numbered by its row divided by 5000. -/
theorem linear_cover (i : S100000x128.Idx) :
    ∃ t : Fin cfg2.N, (cfg2.win 8).flush t = true ∧ i ∈ ((cfg2.win 8).blk t).view.set := by
  have hi0 : (i 0).val < 100000 := (i 0).isLt
  have hi1 : (i 1).val < 128 := (i 1).isLt
  obtain ⟨t, ht⟩ := linear_onto ⟨(i 0).val / 5000, by omega⟩
  have q0 : win2_8.index t (0 : Fin 2) = (i 0).val / 5000 := congrFun ht 0
  have q1 : win2_8.index t (1 : Fin 2) = 0 := congrFun ht 1
  refine ⟨t, flush2_8 t, ?_⟩
  rw [linear_mem_blk]
  intro a
  match a with
  | ⟨0, _⟩ => show win2_8.index t (0 : Fin 2) * 5000 ≤ (i 0).val ∧ (i 0).val < win2_8.index t (0 : Fin 2) * 5000 + 5000; omega
  | ⟨1, _⟩ => show win2_8.index t (1 : Fin 2) * 128 ≤ (i 1).val ∧ (i 1).val < win2_8.index t (1 : Fin 2) * 128 + 128; omega

/-- The output array after the region: the three-term projection of the region's input arrays, plus the bias. -/
theorem linear_final (c : Dev nD) :
    (dat2 (F := Ideal) V c).arrAt 8 cfg2.N
      = linOut (V c main_arg0) (V c main_v21) (V c main_v32) (V c main_v9) (V c main_v34) (V c main_v36) (V c main_v38) (V c main_v39) :=
  (dat2 (F := Ideal) V c).arrAt_eq_of_cover 8
    (linOut (V c main_arg0) (V c main_v21) (V c main_v32) (V c main_v9) (V c main_v34) (V c main_v36) (V c main_v38) (V c main_v39))
    (fun t _ => linear_flushed V c t) linear_cover

end Cert.KernelIdeal.RegionValues

end
-- ==== Proof.Boundaries.lean ====
/-
  The contents of the kernel program's buffers at each boundary between its host stretches and its regions, from the
  launch memory to the result.

  Region 0 scales the features row by row with the normaliser column; the first aggregation sums them over the
  edges; region 1 scales that sum by the column's square; the second aggregation sums again; region 2 projects the
  features and the two sums (each scaled by the column inside the product) with the three weight blocks and adds the
  bias. Each boundary's contents are read from the one before: an input array of a region is as the region found
  it, an output array is what the region's blocks leave, every other buffer is untouched, and a stretch of host
  operations acts as the stretch lemmas say. The arguments are the launch memory's at every boundary.
-/
import proofs.«163932_j26216480375292_2_alg».proof.Proof.Gen.KernelIdeal.Frame
import proofs.«163932_j26216480375292_2_alg».proof.Proof.Formulas
import proofs.«163932_j26216480375292_2_alg».proof.Proof.HostStretches
import proofs.«163932_j26216480375292_2_alg».proof.Proof.ScaleRegion0
import proofs.«163932_j26216480375292_2_alg».proof.Proof.ScaleRegion1
import proofs.«163932_j26216480375292_2_alg».proof.Proof.LinearRegion

noncomputable section

namespace Cert.KernelIdeal.Boundaries

open Idealize.ShloMosaic Idealize.ShloMosaic.TcCoe Idealize.SL.Sem Idealize.ShloMosaic.ValueIdx Idealize.ShloMosaic.StableHlo
open Cert.KernelIdeal Cert.KernelIdeal.Gen Cert.KernelIdeal.HostValues Cert.KernelIdeal.RegionValues Cert.TagConv

/-! ## The contents at each boundary of the program, from the launch memory `m` -/

variable (m : (ℓ : Loc nD τ sig) → Buf (Elt Ideal) ℓ) (ρ : Dev nD → PrngReg)

theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results
theorem W4_arg0 (c : Dev nD) : W4 m ρ c (Proc.devRef .tc main_arg0) = m ((c : Thread nD τ).loc main_arg0) :=
  ((W4_arr m ρ c 0).trans (((dat0 (V3 m ρ) c).arrAt_in 0 rfl _).trans (A_eq0 (V3 m ρ) c 0))).trans (W3_arg0 m ρ c)
theorem W5_arg0 (c : Dev nD) : W5 m ρ c (Proc.devRef .tc main_arg0) = m ((c : Thread nD τ).loc main_arg0) := by
  show StableHlo.after hostOps1 (W4 m ρ c) (Proc.devRef .tc main_arg0) = _
  after_results
  exact W4_arg0 m ρ c
theorem W6_arg0 (c : Dev nD) : W6 m ρ c (Proc.devRef .tc main_arg0) = m ((c : Thread nD τ).loc main_arg0) :=
  (W6_of_ne m ρ c main_arg0 (by decide)).trans (W5_arg0 m ρ c)

theorem W3_arg1 (c : Dev nD) : W3 m ρ c (Proc.devRef .tc main_arg1) = m ((c : Thread nD τ).loc main_arg1) := by
  show StableHlo.after hostOps0_2 (StableHlo.after hostOps0_1 (StableHlo.after hostOps0 (W0 m ρ c))) (Proc.devRef .tc main_arg1) = _
  after_results
theorem W4_arg1 (c : Dev nD) : W4 m ρ c (Proc.devRef .tc main_arg1) = m ((c : Thread nD τ).loc main_arg1) :=
  (W4_of_ne m ρ c main_arg1 (by decide)).trans (W3_arg1 m ρ c)
theorem W5_arg1 (c : Dev nD) : W5 m ρ c (Proc.devRef .tc main_arg1) = m ((c : Thread nD τ).loc main_arg1) := by
  show StableHlo.after hostOps1 (W4 m ρ c) (Proc.devRef .tc main_arg1) = _
  after_results
  exact W4_arg1 m ρ c
theorem W6_arg1 (c : Dev nD) : W6 m ρ c (Proc.devRef .tc main_arg1) = m ((c : Thread nD τ).loc main_arg1) :=
  (W6_of_ne m ρ c main_arg1 (by decide)).trans (W5_arg1 m ρ c)

theorem W3_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results
theorem W4_arg2 (c : Dev nD) : W4 m ρ c (Proc.devRef .tc main_arg2) = m ((c : Thread nD τ).loc main_arg2) :=
  (W4_of_ne m ρ c main_arg2 (by decide)).trans (W3_arg2 m ρ c)
theorem W5_arg2 (c : Dev nD) : W5 m ρ c (Proc.devRef .tc main_arg2) = m ((c : Thread nD τ).loc main_arg2) := by
  show StableHlo.after hostOps1 (W4 m ρ c) (Proc.devRef .tc main_arg2) = _
  after_results
  exact W4_arg2 m ρ c
theorem W6_arg2 (c : Dev nD) : W6 m ρ c (Proc.devRef .tc main_arg2) = m ((c : Thread nD τ).loc main_arg2) :=
  (W6_of_ne m ρ c main_arg2 (by decide)).trans (W5_arg2 m ρ c)

theorem W3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results
theorem W4_arg3 (c : Dev nD) : W4 m ρ c (Proc.devRef .tc main_arg3) = m ((c : Thread nD τ).loc main_arg3) :=
  (W4_of_ne m ρ c main_arg3 (by decide)).trans (W3_arg3 m ρ c)
theorem W5_arg3 (c : Dev nD) : W5 m ρ c (Proc.devRef .tc main_arg3) = m ((c : Thread nD τ).loc main_arg3) := by
  show StableHlo.after hostOps1 (W4 m ρ c) (Proc.devRef .tc main_arg3) = _
  after_results
  exact W4_arg3 m ρ c
theorem W6_arg3 (c : Dev nD) : W6 m ρ c (Proc.devRef .tc main_arg3) = m ((c : Thread nD τ).loc main_arg3) :=
  (W6_of_ne m ρ c main_arg3 (by decide)).trans (W5_arg3 m ρ c)

theorem W3_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results
theorem W4_arg4 (c : Dev nD) : W4 m ρ c (Proc.devRef .tc main_arg4) = m ((c : Thread nD τ).loc main_arg4) :=
  (W4_of_ne m ρ c main_arg4 (by decide)).trans (W3_arg4 m ρ c)
theorem W5_arg4 (c : Dev nD) : W5 m ρ c (Proc.devRef .tc main_arg4) = m ((c : Thread nD τ).loc main_arg4) := by
  show StableHlo.after hostOps1 (W4 m ρ c) (Proc.devRef .tc main_arg4) = _
  after_results
  exact W4_arg4 m ρ c
theorem W6_arg4 (c : Dev nD) : W6 m ρ c (Proc.devRef .tc main_arg4) = m ((c : Thread nD τ).loc main_arg4) :=
  (W6_of_ne m ρ c main_arg4 (by decide)).trans (W5_arg4 m ρ c)

theorem W7_arg0 (c : Dev nD) : W7 m ρ c (Proc.devRef .tc main_arg0) = (m ((c : Thread nD τ).loc main_arg0)) := by
  show StableHlo.after hostOps2 (W6 m ρ c) (Proc.devRef .tc main_arg0) = _
  rw [hop2_arg0]
  exact W6_arg0 m ρ c

/-- The normaliser column as region 0 finds it: the guard against a zero in-degree changes nothing. -/
theorem W3_v9 (c : Dev nD) : W3 m ρ c (Proc.devRef .tc main_v9) = colOf (m ((c : Thread nD τ).loc main_arg2)) := by
  show StableHlo.after hostOps0_2 (StableHlo.after hostOps0_1 (StableHlo.after hostOps0 (W0 m ρ c))) (Proc.devRef .tc main_v9) = _
  rw [col_v9, where_v8, pre_v5, pre_v7, pre_cst3, guard_eq]

/-- Its entrywise square, which region 1 scales by. -/
theorem W3_v10 (c : Dev nD) : W3 m ρ c (Proc.devRef .tc main_v10) = mulf (colOf (m ((c : Thread nD τ).loc main_arg2))) (colOf (m ((c : Thread nD τ).loc main_arg2))) := by
  show StableHlo.after hostOps0_2 (StableHlo.after hostOps0_1 (StableHlo.after hostOps0 (W0 m ρ c))) (Proc.devRef .tc main_v10) = _
  rw [col_v10, where_v8, pre_v5, pre_v7, pre_cst3, guard_eq]

theorem W4_v9 (c : Dev nD) : W4 m ρ c (Proc.devRef .tc main_v9) = colOf (m ((c : Thread nD τ).loc main_arg2)) :=
  ((W4_arr m ρ c 1).trans (((dat0 (V3 m ρ) c).arrAt_in 1 rfl _).trans (A_eq0 (V3 m ρ) c 1))).trans (W3_v9 m ρ c)
theorem W4_v10 (c : Dev nD) : W4 m ρ c (Proc.devRef .tc main_v10) = mulf (colOf (m ((c : Thread nD τ).loc main_arg2))) (colOf (m ((c : Thread nD τ).loc main_arg2))) :=
  (W4_of_ne m ρ c main_v10 (by decide)).trans (W3_v10 m ρ c)
/-- Region 0 leaves the features scaled row by row. -/
theorem W4_v11 (c : Dev nD) : W4 m ρ c (Proc.devRef .tc main_v11) = rowScale (m ((c : Thread nD τ).loc main_arg0)) (colOf (m ((c : Thread nD τ).loc main_arg2))) :=
  (W4_arr m ρ c 2).trans ((scale0_final (V3 m ρ) c).trans (congrArg₂ rowScale (W3_arg0 m ρ c) (W3_v9 m ρ c)))

/-- The first hop's sum. -/
abbrev hop1 (c : Dev nD) : FVec Ideal S100000x128 .f32 :=
  agg (rowScale (m ((c : Thread nD τ).loc main_arg0)) (colOf (m ((c : Thread nD τ).loc main_arg2)))) (m ((c : Thread nD τ).loc main_arg1)) (m ((c : Thread nD τ).loc main_arg2))

theorem W5_v21 (c : Dev nD) : W5 m ρ c (Proc.devRef .tc main_v21) = hop1 m c := by
  show StableHlo.after hostOps1 (W4 m ρ c) (Proc.devRef .tc main_v21) = _
  rw [hop1_v21, W4_v11, W4_arg1, W4_arg2]
theorem W5_v9 (c : Dev nD) : W5 m ρ c (Proc.devRef .tc main_v9) = colOf (m ((c : Thread nD τ).loc main_arg2)) := by
  show StableHlo.after hostOps1 (W4 m ρ c) (Proc.devRef .tc main_v9) = _
  rw [hop1_v9]
  exact W4_v9 m ρ c
theorem W5_v10 (c : Dev nD) : W5 m ρ c (Proc.devRef .tc main_v10) = mulf (colOf (m ((c : Thread nD τ).loc main_arg2))) (colOf (m ((c : Thread nD τ).loc main_arg2))) := by
  show StableHlo.after hostOps1 (W4 m ρ c) (Proc.devRef .tc main_v10) = _
  rw [hop1_v10]
  exact W4_v10 m ρ c

theorem W6_v21 (c : Dev nD) : W6 m ρ c (Proc.devRef .tc main_v21) = hop1 m c :=
  ((W6_arr m ρ c 0).trans (((dat1 (V5 m ρ) c).arrAt_in 0 rfl _).trans (A_eq1 (V5 m ρ) c 0))).trans (W5_v21 m ρ c)
theorem W6_v9 (c : Dev nD) : W6 m ρ c (Proc.devRef .tc main_v9) = colOf (m ((c : Thread nD τ).loc main_arg2)) :=
  (W6_of_ne m ρ c main_v9 (by decide)).trans (W5_v9 m ρ c)
/-- Region 1 leaves the first hop's sum scaled by the squared column. -/
theorem W6_v22 (c : Dev nD) : W6 m ρ c (Proc.devRef .tc main_v22)
    = rowScale (hop1 m c) (mulf (colOf (m ((c : Thread nD τ).loc main_arg2))) (colOf (m ((c : Thread nD τ).loc main_arg2)))) :=
  (W6_arr m ρ c 2).trans ((scale1_final (V5 m ρ) c).trans (congrArg₂ rowScale (W5_v21 m ρ c) (W5_v10 m ρ c)))

/-- The second hop's sum. -/
abbrev hop2 (c : Dev nD) : FVec Ideal S100000x128 .f32 :=
  agg (rowScale (hop1 m c) (mulf (colOf (m ((c : Thread nD τ).loc main_arg2))) (colOf (m ((c : Thread nD τ).loc main_arg2))))) (m ((c : Thread nD τ).loc main_arg1)) (m ((c : Thread nD τ).loc main_arg2))

theorem W7_v21 (c : Dev nD) : W7 m ρ c (Proc.devRef .tc main_v21) = hop1 m c := by
  show StableHlo.after hostOps2 (W6 m ρ c) (Proc.devRef .tc main_v21) = _
  rw [hop2_v21]
  exact W6_v21 m ρ c
theorem W7_v32 (c : Dev nD) : W7 m ρ c (Proc.devRef .tc main_v32) = hop2 m c := by
  show StableHlo.after hostOps2 (W6 m ρ c) (Proc.devRef .tc main_v32) = _
  rw [hop2_v32, W6_v22, W6_arg1, W6_arg2]
theorem W7_v9 (c : Dev nD) : W7 m ρ c (Proc.devRef .tc main_v9) = colOf (m ((c : Thread nD τ).loc main_arg2)) := by
  show StableHlo.after hostOps2 (W6 m ρ c) (Proc.devRef .tc main_v9) = _
  rw [hop2_v9]
  exact W6_v9 m ρ c
theorem W7_v34 (c : Dev nD) : W7 m ρ c (Proc.devRef .tc main_v34) = Cert.ReferenceIdeal.RefValue.wBlock0 (m ((c : Thread nD τ).loc main_arg3)) := by
  show StableHlo.after hostOps2 (W6 m ρ c) (Proc.devRef .tc main_v34) = _
  rw [hop2_v34, W6_arg3]
theorem W7_v36 (c : Dev nD) : W7 m ρ c (Proc.devRef .tc main_v36) = Cert.ReferenceIdeal.RefValue.wBlock1 (m ((c : Thread nD τ).loc main_arg3)) := by
  show StableHlo.after hostOps2 (W6 m ρ c) (Proc.devRef .tc main_v36) = _
  rw [hop2_v36, W6_arg3]
theorem W7_v38 (c : Dev nD) : W7 m ρ c (Proc.devRef .tc main_v38) = Cert.ReferenceIdeal.RefValue.wBlock2 (m ((c : Thread nD τ).loc main_arg3)) := by
  show StableHlo.after hostOps2 (W6 m ρ c) (Proc.devRef .tc main_v38) = _
  rw [hop2_v38, W6_arg3]
theorem W7_v39 (c : Dev nD) : W7 m ρ c (Proc.devRef .tc main_v39) = Cert.ReferenceIdeal.RefValue.biasRow (m ((c : Thread nD τ).loc main_arg4)) := by
  show StableHlo.after hostOps2 (W6 m ρ c) (Proc.devRef .tc main_v39) = _
  rw [hop2_v39, W6_arg4]

/-- What the last region leaves in the result's buffer. -/
theorem W8_v40 (c : Dev nD) : W8 m ρ c (Proc.devRef .tc main_v40)
    = linOut (m ((c : Thread nD τ).loc main_arg0)) (hop1 m c) (hop2 m c) (colOf (m ((c : Thread nD τ).loc main_arg2)))
        (Cert.ReferenceIdeal.RefValue.wBlock0 (m ((c : Thread nD τ).loc main_arg3))) (Cert.ReferenceIdeal.RefValue.wBlock1 (m ((c : Thread nD τ).loc main_arg3)))
        (Cert.ReferenceIdeal.RefValue.wBlock2 (m ((c : Thread nD τ).loc main_arg3))) (Cert.ReferenceIdeal.RefValue.biasRow (m ((c : Thread nD τ).loc main_arg4))) := by
  refine (W8_arr m ρ c 8).trans ((linear_final (V7 m ρ) c).trans ?_)
  show linOut (W7 m ρ c (Proc.devRef .tc main_arg0)) (W7 m ρ c (Proc.devRef .tc main_v21)) (W7 m ρ c (Proc.devRef .tc main_v32)) (W7 m ρ c (Proc.devRef .tc main_v9))
      (W7 m ρ c (Proc.devRef .tc main_v34)) (W7 m ρ c (Proc.devRef .tc main_v36)) (W7 m ρ c (Proc.devRef .tc main_v38)) (W7 m ρ c (Proc.devRef .tc main_v39)) = _
  rw [W7_arg0, W7_v21, W7_v32, W7_v9, W7_v34, W7_v36, W7_v38, W7_v39]

end Cert.KernelIdeal.Boundaries

end
-- ==== Proof.RefStages.lean ====
/-
  The reference's named stages, in the kernel side's vocabulary.

  The reference computes the normaliser column, scales the features row-wise by it, aggregates over the neighbours,
  scales twice more, and aggregates again.  Its column is the kernel side's column and its two aggregations are the
  kernel side's aggregation of the scaled arrays, term for term.  A multiplication by the column broadcast along the
  rows is the row scaling by the column; two of them in a row are one row scaling by the column's entrywise square,
  because multiplication of extended reals is associative.  Both pointwise facts hold for an arbitrary column, in
  particular for the reference's.
-/
import proofs.«163932_j26216480375292_2_alg».proof.Proof.HostStretches
import proofs.«163932_j26216480375292_2_alg».proof.Proof.Gen.ReferenceIdeal.Read
import proofs.«163932_j26216480375292_2_alg».proof.Proof.Formulas
noncomputable section

namespace Cert.KernelIdeal.Boundaries
open Idealize.ShloMosaic Idealize.ShloMosaic.TcCoe Idealize.SL.Sem Idealize.ShloMosaic.ValueIdx Idealize.ShloMosaic.StableHlo
open Cert.KernelIdeal Cert.KernelIdeal.Gen Cert.KernelIdeal.HostValues Cert.TagConv

/-! ## The reference's named stages, in the kernel side's vocabulary -/

theorem ref_col (x2 : IVec S1600000 32) : Cert.ReferenceIdeal.Read.val_main_v6 (F := Ideal) x2 = colOf x2 := by
  unfold Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_v1 Cert.ReferenceIdeal.Read.val_main_v0 Cert.ReferenceIdeal.Read.val_main_cst Cert.ReferenceIdeal.Read.val_main_cst_0 Cert.ReferenceIdeal.Read.val_main_cst_1 colOf normOf degOf
  rfl

theorem ref_v18 (x0 : FVec Ideal S100000x128 .f32) (x1 x2 : IVec S1600000 32) :
    Cert.ReferenceIdeal.Read.val_main_v18 (F := Ideal) x0 x1 x2 = agg (Cert.ReferenceIdeal.Read.val_main_v8 (F := Ideal) x0 x2) x1 x2 := by
  unfold Cert.ReferenceIdeal.Read.val_main_v18 Cert.ReferenceIdeal.Read.val_main_v17 Cert.ReferenceIdeal.Read.val_main_v16 Cert.ReferenceIdeal.Read.val_main_v15 Cert.ReferenceIdeal.Read.val_main_v14 Cert.ReferenceIdeal.Read.val_main_v13 Cert.ReferenceIdeal.Read.val_main_v12 Cert.ReferenceIdeal.Read.val_main_v11 Cert.ReferenceIdeal.Read.val_main_v10 Cert.ReferenceIdeal.Read.val_main_v9 Cert.ReferenceIdeal.Read.val_main_c Cert.ReferenceIdeal.Read.val_main_c_2 Cert.ReferenceIdeal.Read.val_main_cst_3 agg
  rfl

theorem ref_v32 (x0 : FVec Ideal S100000x128 .f32) (x1 x2 : IVec S1600000 32) :
    Cert.ReferenceIdeal.Read.val_main_v32 (F := Ideal) x0 x1 x2 = agg (Cert.ReferenceIdeal.Read.val_main_v22 (F := Ideal) x0 x1 x2) x1 x2 := by
  unfold Cert.ReferenceIdeal.Read.val_main_v32 Cert.ReferenceIdeal.Read.val_main_v31 Cert.ReferenceIdeal.Read.val_main_v30 Cert.ReferenceIdeal.Read.val_main_v29 Cert.ReferenceIdeal.Read.val_main_v28 Cert.ReferenceIdeal.Read.val_main_v27 Cert.ReferenceIdeal.Read.val_main_v26 Cert.ReferenceIdeal.Read.val_main_v25 Cert.ReferenceIdeal.Read.val_main_v24 Cert.ReferenceIdeal.Read.val_main_v23 Cert.ReferenceIdeal.Read.val_main_c_4 Cert.ReferenceIdeal.Read.val_main_c_5 Cert.ReferenceIdeal.Read.val_main_cst_6 agg
  rfl

/-- A column broadcast along the rows reads, at an index, the column's entry of the index's row. -/
theorem bcast_col_apply (n : FVec Ideal S100000x1 .f32) (i : S100000x128.Idx) :
    broadcastInDim Cert.ReferenceIdeal.S100000x128 ![0, 1] Cert.ReferenceIdeal.Gen.bcast_S100000x1_S100000x128_0_1 n i = n (rowOf i) :=
  broadcastInDim_apply _ Cert.ReferenceIdeal.Gen.bcast_S100000x1_S100000x128_0_1 n i (rowOf i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])

/-- Multiplying by a column broadcast along the rows is the row scaling by the column. -/
theorem mulf_bcast_col (x : FVec Ideal S100000x128 .f32) (n : FVec Ideal S100000x1 .f32) :
    mulf x (broadcastInDim Cert.ReferenceIdeal.S100000x128 ![0, 1] Cert.ReferenceIdeal.Gen.bcast_S100000x1_S100000x128_0_1 n) = rowScale x n := by
  funext i
  rw [mulf_apply, bcast_col_apply]
  rfl

/-- Two such multiplications in a row are one row scaling by the column's entrywise square. -/
theorem mulf_bcast_col_twice (h : FVec Ideal S100000x128 .f32) (n : FVec Ideal S100000x1 .f32) :
    mulf (mulf h (broadcastInDim Cert.ReferenceIdeal.S100000x128 ![0, 1] Cert.ReferenceIdeal.Gen.bcast_S100000x1_S100000x128_0_1 n))
        (broadcastInDim Cert.ReferenceIdeal.S100000x128 ![0, 1] Cert.ReferenceIdeal.Gen.bcast_S100000x1_S100000x128_0_1 n)
      = rowScale h (mulf n n) := by
  rw [mulf_bcast_col, mulf_bcast_col]
  funext i
  show (h i * n (rowOf i)) * n (rowOf i) = h i * (n (rowOf i) * n (rowOf i))
  exact mul_assoc _ _ _

/-- The reference's first scaling is the row scaling by the column. -/
theorem ref_v8 (x0 : FVec Ideal S100000x128 .f32) (x2 : IVec S1600000 32) :
    Cert.ReferenceIdeal.Read.val_main_v8 (F := Ideal) x0 x2 = rowScale x0 (colOf x2) := by
  unfold Cert.ReferenceIdeal.Read.val_main_v8 Cert.ReferenceIdeal.Read.val_main_v7
  rw [ref_col]
  exact mulf_bcast_col x0 (colOf x2)

/-- Scaling a row twice by the column's entry is scaling it once by the entry's square: multiplication of extended
    reals is associative. -/
theorem ref_v22 (x0 : FVec Ideal S100000x128 .f32) (x1 x2 : IVec S1600000 32) :
    Cert.ReferenceIdeal.Read.val_main_v22 (F := Ideal) x0 x1 x2
      = rowScale (Cert.ReferenceIdeal.Read.val_main_v18 (F := Ideal) x0 x1 x2) (mulf (colOf x2) (colOf x2)) := by
  unfold Cert.ReferenceIdeal.Read.val_main_v22 Cert.ReferenceIdeal.Read.val_main_v21 Cert.ReferenceIdeal.Read.val_main_v20 Cert.ReferenceIdeal.Read.val_main_v19
  rw [ref_col]
  exact mulf_bcast_col_twice (Cert.ReferenceIdeal.Read.val_main_v18 (F := Ideal) x0 x1 x2) (colOf x2)

end Cert.KernelIdeal.Boundaries
end
-- ==== Proof.KernelValue.lean ====
/-
  The kernel's result is the reference's last stage read at the kernel's arguments.

  The reference's projection, written with its two aggregation stages and its normaliser column named
  (the projection formula), has exactly the shape of what the kernel's last region leaves. The named stages are then
  matched one by one: the reference's column is the kernel's (the guard against a zero in-degree changes nothing);
  its first scaled features are the kernel's row scaling, so the first sums agree; its twice-scaled first sum is the
  kernel's single scaling by the squared column, so the second sums agree.
-/
import proofs.«163932_j26216480375292_2_alg».proof.Proof.Boundaries
import proofs.«163932_j26216480375292_2_alg».proof.Proof.RefStages
import proofs.«163932_j26216480375292_2_alg».proof.Proof.RefProjection

noncomputable section

namespace Cert.KernelIdeal.Boundaries

open Idealize.ShloMosaic Idealize.ShloMosaic.TcCoe Idealize.SL.Sem
open Cert.KernelIdeal Cert.KernelIdeal.Gen Cert.TagConv

variable (m : (ℓ : Loc nD τ sig) → Buf (Elt Ideal) ℓ) (ρ : Dev nD → PrngReg)

/-- The result buffer after the kernel's run holds the reference's last stage of the kernel's five arguments. -/
theorem result_value (c : Dev nD) : W8 m ρ c (Proc.devRef .tc main_v40)
    = Cert.ReferenceIdeal.Read.val_main_v40 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  rw [Cert.ReferenceIdeal.RefValue.ref_projection, ref_v32, ref_v22, ref_v18, ref_v8, ref_col]
  exact W8_v40 m ρ c

end Cert.KernelIdeal.Boundaries

end
-- ==== Proof.lean ====
/-
  Two-hop degree-normalised neighbour aggregation followed by a linear projection, as three row-blocked kernels
  among host operations, against the plain reference: the certificate's five claims.

  The mathematics. With `deg` the in-degree (a count of ones, so never negative) and `n = deg ^ (-1/2)` read on
  the extended reals, where the power of zero to a negative exponent is zero, the kernel's guard
  `where(deg > 0, n, 0)` is `n` itself. The reference scales the first hop's sum by `n` twice in a row, the kernel
  once by `n · n`: multiplication of extended reals is associative. The reference contracts the 384 concatenated
  columns `[feat | h1 | h2]` with `Wᵀ` at once; the kernel adds three 128-column contractions, forming `h1` and
  `h2` from the unscaled sums inside the product: a sum over 384 consecutive positions is the sum of its three
  blocks of 128, by commutativity and associativity of addition alone. No step distributes a product over a sum
  or cancels, so infinite entries are harmless and the finiteness of the inputs is never opened. The gather by source and
  scatter-add by destination are the same host operations in both programs and are carried as one function of their
  operand, never opened.

  The frames of the two kernel programs are the generated ones; the reference's frame is its generated run with the
  result dropped; the idealization rewrote nothing, so there is nothing to preserve.
-/
import proofs.«163932_j26216480375292_2_alg».proof.Defs
import proofs.«163932_j26216480375292_2_alg».proof.Proof.Gen.Kernel
import proofs.«163932_j26216480375292_2_alg».proof.Proof.Gen.Kernel.Frame
import proofs.«163932_j26216480375292_2_alg».proof.Proof.Gen.KernelIdeal
import proofs.«163932_j26216480375292_2_alg».proof.Proof.Gen.KernelIdeal.Frame
import proofs.«163932_j26216480375292_2_alg».proof.Proof.Gen.ReferenceIdeal
import proofs.«163932_j26216480375292_2_alg».proof.Proof.Gen.Pre_finite_inputs
import proofs.«163932_j26216480375292_2_alg».proof.Proof.Gen.ReferenceIdeal.Run
import proofs.«163932_j26216480375292_2_alg».proof.Proof.Gen.ReferenceIdeal.Read
import proofs.«163932_j26216480375292_2_alg».proof.Proof.KernelRun
import proofs.«163932_j26216480375292_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result at the reference's last stage read at the kernel's arguments: the kernel's by the
    value of its result buffer, the reference's by its run, its arguments being the kernel's. -/
theorem algebraic : Cert.algebraic_KernelIdeal_ReferenceIdeal := by
  intro m ρ m' ρ' _ hagree
  refine ⟨fun c => Cert.ReferenceIdeal.Read.val_main_v40 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Boundaries.result_value m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v40_eq, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
